-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x1 : Shape := ⟨2, ![500000, 1]⟩
abbrev S2x16000000 : Shape := ⟨2, ![2, 16000000]⟩
abbrev S16000000 : Shape := ⟨1, ![16000000]⟩
abbrev S1x128 : Shape := ⟨2, ![1, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S500000x1 : S_.BroadcastsInDim S500000x1 (![] : Fin 0 → Fin S500000x1.rank)
  reducesTo_S500000x1_S_d0_1 : S500000x1.ReducesTo [0, 1] S_
  h_S_ : 0 < S_.numel
  bcast_S_S16000000 : S_.BroadcastsInDim S16000000 (![] : Fin 0 → Fin S16000000.rank)
  reducesTo_S16000000_S_d0 : S16000000.ReducesTo [0] S_
  bcast_S_S1x128 : S_.BroadcastsInDim S1x128 (![] : Fin 0 → Fin S1x128.rank)
  reducesTo_S1x128_S_d0_1 : S1x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S128x1 .f32) (main_arg11 : FVec F S1 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg10
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S1x128 .f32) (main_arg6 : FVec F S1x128 .f32) (main_arg7 : FVec F S128 .f32) (main_arg8 : FVec F S128x128 .f32) (main_arg9 : FVec F S128 .f32) (main_arg10 : FVec F S128x1 .f32) (main_arg11 : FVec F S1 .f32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S1x128 .f32 := Host.absf main_arg5
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S1x128 .f32 := Host.absf main_arg6
  let main_cst_8 : FVec F S_ .f32 := constant S_ .f32 0x7F800000#32
  let main_v25 : FVec F S1x128 .f32 := broadcastInDim S1x128 ![] bcast_S_S1x128 main_cst_8
  let main_v26 : IVec S1x128 1 := cmpf .olt main_v24 main_v25
  let main_c_9 : IVec S_ 1 := constantI S_ 1 1#1
  let main_v27 : IVec S_ 1 := (fun x v => Host.reduce IntOp.andi x v reducesTo_S1x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S500000x1 .f32) (main_arg1 : IVec S2x16000000 32) (main_arg2 : FVec F S16000000 .f32) (main_arg3 : FVec F S1x128 .f32) (main_arg4 : FVec F S1x128 .f32) (main_arg5 : FVec F S1x128 .f32) (main_arg6 : FVec F S1x128 .f32) (main_arg7 : FVec F S128 .f32) (main_arg8 : FVec F S128x128 .f32) (main_arg9 : FVec F S128 .f32) (main_arg10 : FVec F S128x1 .f32) (main_arg11 : FVec F S1 .f32) : IVec S_ 1 :=
  let main_v0 : FVec F S500000x1 .f32 := Host.absf main_arg0
  let main_cst : FVec F S_ .f32 := constant S_ .f32 0x7F800000#32
  let main_v1 : FVec F S500000x1 .f32 := broadcastInDim S500000x1 ![] bcast_S_S500000x1 main_cst
  let main_v2 : IVec S500000x1 1 := cmpf .olt main_v0 main_v1
  let main_c : IVec S_ 1 := constantI S_ 1 1#1
  let main_v3 : IVec S_ 1 := (fun x v => Host.reduce IntOp.andi x v reducesTo_S500000x1_S_d0_1 h_S_) main_v2 main_c
  let main_v4 : FVec F S16000000 .f32 := Host.absf main_arg2
  let main_cst_0 : FVec F S_ .f32 := constant S_ .f32 0x7F800000#32
  let main_v5 : FVec F S16000000 .f32 := broadcastInDim S16000000 ![] bcast_S_S16000000 main_cst_0
  let main_v6 : IVec S16000000 1 := cmpf .olt main_v4 main_v5
  let main_c_1 : IVec S_ 1 := constantI S_ 1 1#1
  let main_v7 : IVec S_ 1 := (fun x v => Host.reduce IntOp.andi x v reducesTo_S16000000_S_d0 h_S_) main_v6 main_c_1
  let main_v8 : IVec S_ 1 := andi main_v3 main_v7
  let main_v9 : FVec F S1x128 .f32 := Host.absf main_arg3
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S1x128 .f32 := Host.absf main_arg4
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg5 main_arg6 main_arg7 main_arg8 main_arg9 main_arg10 main_arg11 main_v13 main_v16
-- ==== Kernel.lean ====
abbrev S500000x1 : Shape := ⟨2, ![500000, 1]⟩
abbrev S2x16000000 : Shape := ⟨2, ![2, 16000000]⟩
abbrev S16000000 : Shape := ⟨1, ![16000000]⟩
abbrev S1x128 : Shape := ⟨2, ![1, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x16000000 : Shape := ⟨2, ![1, 16000000]⟩
abbrev S_ : Shape := ⟨0, ![]⟩
abbrev S500000 : Shape := ⟨1, ![500000]⟩
abbrev S16000000x1 : Shape := ⟨2, ![16000000, 1]⟩
abbrev S500000x4 : Shape := ⟨2, ![500000, 4]⟩
abbrev S4x128 : Shape := ⟨2, ![4, 128]⟩
abbrev S1x1 : Shape := ⟨2, ![1, 1]⟩
abbrev S5000x4 : Shape := ⟨2, ![5000, 4]⟩
abbrev S5000x1 : Shape := ⟨2, ![5000, 1]⟩
abbrev S5000x128 : Shape := ⟨2, ![5000, 128]⟩

abbrev nBuf : Space → Nat
  | .hbm => 102
  | .vmem => 10
  | .smem => 0
  | _ => 0

abbrev bufTy : (tb : Table) → Fin (tcTables nBuf tb) → BufTy
  | .hbm, ⟨0, _⟩ => ⟨S500000x1, .f32⟩
  | .hbm, ⟨1, _⟩ => ⟨S2x16000000, .i32⟩
  | .hbm, ⟨2, _⟩ => ⟨S16000000, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S1x16000000, .i32⟩
  | .hbm, ⟨13, _⟩ => ⟨S16000000, .i32⟩
  | .hbm, ⟨14, _⟩ => ⟨S1x16000000, .i32⟩
  | .hbm, ⟨15, _⟩ => ⟨S16000000, .i32⟩
  | .hbm, ⟨16, _⟩ => ⟨S_, .f32⟩
  | .hbm, ⟨17, _⟩ => ⟨S500000, .f32⟩
  | .hbm, ⟨18, _⟩ => ⟨S16000000x1, .i32⟩
  | .hbm, ⟨19, _⟩ => ⟨S500000, .f32⟩
  | .hbm, ⟨20, _⟩ => ⟨S_, .f32⟩
  | .hbm, ⟨21, _⟩ => ⟨S500000, .f32⟩
  | .hbm, ⟨22, _⟩ => ⟨S500000, .i1⟩
  | .hbm, ⟨23, _⟩ => ⟨S_, .f32⟩
  | .hbm, ⟨24, _⟩ => ⟨S500000, .f32⟩
  | .hbm, ⟨25, _⟩ => ⟨S500000, .f32⟩
  | .hbm, ⟨26, _⟩ => ⟨S500000, .f32⟩
  | .hbm, ⟨27, _⟩ => ⟨S_, .f32⟩
  | .hbm, ⟨28, _⟩ => ⟨S_, .f32⟩
  | .hbm, ⟨29, _⟩ => ⟨S500000, .f32⟩
  | .hbm, ⟨30, _⟩ => ⟨S500000, .f32⟩
  | .hbm, ⟨31, _⟩ => ⟨S_, .i32⟩
  | .hbm, ⟨32, _⟩ => ⟨S16000000, .i32⟩
  | .hbm, ⟨33, _⟩ => ⟨S16000000, .i1⟩
  | .hbm, ⟨34, _⟩ => ⟨S_, .i32⟩
  | .hbm, ⟨35, _⟩ => ⟨S16000000, .i32⟩
  | .hbm, ⟨36, _⟩ => ⟨S16000000, .i32⟩
  | .hbm, ⟨37, _⟩ => ⟨S16000000, .i32⟩
  | .hbm, ⟨38, _⟩ => ⟨S16000000x1, .i32⟩
  | .hbm, ⟨39, _⟩ => ⟨S16000000, .f32⟩
  | .hbm, ⟨40, _⟩ => ⟨S16000000, .f32⟩
  | .hbm, ⟨41, _⟩ => ⟨S_, .i32⟩
  | .hbm, ⟨42, _⟩ => ⟨S16000000, .i32⟩
  | .hbm, ⟨43, _⟩ => ⟨S16000000, .i1⟩
  | .hbm, ⟨44, _⟩ => ⟨S_, .i32⟩
  | .hbm, ⟨45, _⟩ => ⟨S16000000, .i32⟩
  | .hbm, ⟨46, _⟩ => ⟨S16000000, .i32⟩
  | .hbm, ⟨47, _⟩ => ⟨S16000000, .i32⟩
  | .hbm, ⟨48, _⟩ => ⟨S16000000x1, .i32⟩
  | .hbm, ⟨49, _⟩ => ⟨S16000000, .f32⟩
  | .hbm, ⟨50, _⟩ => ⟨S16000000, .f32⟩
  | .hbm, ⟨51, _⟩ => ⟨S16000000x1, .f32⟩
  | .hbm, ⟨52, _⟩ => ⟨S_, .i32⟩
  | .hbm, ⟨53, _⟩ => ⟨S16000000, .i32⟩
  | .hbm, ⟨54, _⟩ => ⟨S16000000, .i1⟩
  | .hbm, ⟨55, _⟩ => ⟨S_, .i32⟩
  | .hbm, ⟨56, _⟩ => ⟨S16000000, .i32⟩
  | .hbm, ⟨57, _⟩ => ⟨S16000000, .i32⟩
  | .hbm, ⟨58, _⟩ => ⟨S16000000, .i32⟩
  | .hbm, ⟨59, _⟩ => ⟨S16000000x1, .i32⟩
  | .hbm, ⟨60, _⟩ => ⟨S16000000x1, .f32⟩
  | .hbm, ⟨61, _⟩ => ⟨S16000000x1, .f32⟩
  | .hbm, ⟨62, _⟩ => ⟨S_, .f32⟩
  | .hbm, ⟨63, _⟩ => ⟨S500000x1, .f32⟩
  | .hbm, ⟨64, _⟩ => ⟨S16000000x1, .i32⟩
  | .hbm, ⟨65, _⟩ => ⟨S500000x1, .f32⟩
  | .hbm, ⟨66, _⟩ => ⟨S16000000x1, .f32⟩
  | .hbm, ⟨67, _⟩ => ⟨S_, .i32⟩
  | .hbm, ⟨68, _⟩ => ⟨S16000000, .i32⟩
  | .hbm, ⟨69, _⟩ => ⟨S16000000, .i1⟩
  | .hbm, ⟨70, _⟩ => ⟨S_, .i32⟩
  | .hbm, ⟨71, _⟩ => ⟨S16000000, .i32⟩
  | .hbm, ⟨72, _⟩ => ⟨S16000000, .i32⟩
  | .hbm, ⟨73, _⟩ => ⟨S16000000, .i32⟩
  | .hbm, ⟨74, _⟩ => ⟨S16000000x1, .i32⟩
  | .hbm, ⟨75, _⟩ => ⟨S16000000x1, .f32⟩
  | .hbm, ⟨76, _⟩ => ⟨S16000000x1, .f32⟩
  | .hbm, ⟨77, _⟩ => ⟨S_, .f32⟩
  | .hbm, ⟨78, _⟩ => ⟨S500000x1, .f32⟩
  | .hbm, ⟨79, _⟩ => ⟨S16000000x1, .i32⟩
  | .hbm, ⟨80, _⟩ => ⟨S500000x1, .f32⟩
  | .hbm, ⟨81, _⟩ => ⟨S16000000x1, .f32⟩
  | .hbm, ⟨82, _⟩ => ⟨S_, .i32⟩
  | .hbm, ⟨83, _⟩ => ⟨S16000000, .i32⟩
  | .hbm, ⟨84, _⟩ => ⟨S16000000, .i1⟩
  | .hbm, ⟨85, _⟩ => ⟨S_, .i32⟩
  | .hbm, ⟨86, _⟩ => ⟨S16000000, .i32⟩
  | .hbm, ⟨87, _⟩ => ⟨S16000000, .i32⟩
  | .hbm, ⟨88, _⟩ => ⟨S16000000, .i32⟩
  | .hbm, ⟨89, _⟩ => ⟨S16000000x1, .i32⟩
  | .hbm, ⟨90, _⟩ => ⟨S16000000x1, .f32⟩
  | .hbm, ⟨91, _⟩ => ⟨S16000000x1, .f32⟩
  | .hbm, ⟨92, _⟩ => ⟨S_, .f32⟩
  | .hbm, ⟨93, _⟩ => ⟨S500000x1, .f32⟩
  | .hbm, ⟨94, _⟩ => ⟨S16000000x1, .i32⟩
  | .hbm, ⟨95, _⟩ => ⟨S500000x1, .f32⟩
  | .hbm, ⟨96, _⟩ => ⟨S500000x4, .f32⟩
  | .hbm, ⟨97, _⟩ => ⟨S4x128, .f32⟩
  | .hbm, ⟨98, _⟩ => ⟨S1x128, .f32⟩
  | .hbm, ⟨99, _⟩ => ⟨S1x128, .f32⟩
  | .hbm, ⟨100, _⟩ => ⟨S1x1, .f32⟩
  | .hbm, ⟨101, _⟩ => ⟨S500000x1, .f32⟩
  | .local _ .vmem, ⟨0, _⟩ => ⟨S5000x4, .f32⟩
  | .local _ .vmem, ⟨1, _⟩ => ⟨S5000x4, .f32⟩
  | .local _ .vmem, ⟨2, _⟩ => ⟨S4x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x1, .f32⟩
  | .local _ .vmem, ⟨7, _⟩ => ⟨S1x1, .f32⟩
  | .local _ .vmem, ⟨8, _⟩ => ⟨S5000x1, .f32⟩
  | .local _ .vmem, ⟨9, _⟩ => ⟨S5000x1, .f32⟩
  | _, _ => ⟨S500000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_4 : Ref sig .tc := ⟨.hbm, 41, rfl⟩
abbrev main_v21 : Ref sig .tc := ⟨.hbm, 42, rfl⟩
abbrev main_v22 : Ref sig .tc := ⟨.hbm, 43, rfl⟩
abbrev main_c_5 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_c_7 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_8 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_9 : Ref sig .tc := ⟨.hbm, 67, rfl⟩
abbrev main_v42 : Ref sig .tc := ⟨.hbm, 68, rfl⟩
abbrev main_v43 : Ref sig .tc := ⟨.hbm, 69, rfl⟩
abbrev main_c_10 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_11 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_c_12 : Ref sig .tc := ⟨.hbm, 82, rfl⟩
abbrev main_v54 : Ref sig .tc := ⟨.hbm, 83, rfl⟩
abbrev main_v55 : Ref sig .tc := ⟨.hbm, 84, rfl⟩
abbrev main_c_13 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_14 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  bcast_S_S500000 : S_.BroadcastsInDim S500000 (![] : Fin 0 → Fin S500000.rank)
  bcast_S16000000_S16000000x1_0 : S16000000.BroadcastsInDim S16000000x1 (![0] : Fin 1 → Fin S16000000x1.rank)
  bcast_S_S16000000 : S_.BroadcastsInDim S16000000 (![] : Fin 0 → Fin S16000000.rank)
  bcast_S_S500000x1 : S_.BroadcastsInDim S500000x1 (![] : Fin 0 → Fin S500000x1.rank)
  concatenates_S500000x1_S500000x1_S500000x1_S500000x1_S500000x4_d1 : Shape.Concatenates [S500000x1, S500000x1, S500000x1, S500000x1] S500000x4 1
  concatenates_S1x128_S1x128_S1x128_S1x128_S4x128_d0 : Shape.Concatenates [S1x128, S1x128, S1x128, S1x128] S4x128 0
  shapeCasts_S128_S1x128 : S128.ShapeCasts S1x128
  shapeCasts_S1_S1x1 : S1.ShapeCasts S1x1
  inb_S5000x4_S5000x4_0_0 : ∀ a, (![0, 0] : Fin 2 → Nat) a + S5000x4.size a ≤ S5000x4.size a
  h_S5000x4 : 0 < S5000x4.numel
  shapeCasts_S5000x4_S5000x4 : S5000x4.ShapeCasts S5000x4
  bitsLt_bf16_f32 : FTy.bits .bf16 < FTy.bits .f32
  inb_S4x128_S4x128_0_0 : ∀ a, (![0, 0] : Fin 2 → Nat) a + S4x128.size a ≤ S4x128.size a
  h_S4x128 : 0 < S4x128.numel
  shapeCasts_S4x128_S4x128 : S4x128.ShapeCasts S4x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S500000_S16000000x1_S16000000_n_0_0_1_wf : ScatterDims.WF S500000 S16000000x1 S16000000 [] [0] [0] 1
  gather_S500000_S16000000x1_S16000000_n_0_n_n_0_1_1_wf : GatherDims.WF S500000 S16000000x1 S16000000 [] [0] [] [0] [] 1 ![1]
  gather_S500000x1_S16000000x1_S16000000x1_1_0_n_n_0_1_11_wf : GatherDims.WF S500000x1 S16000000x1 S16000000x1 [1] [0] [] [0] [] 1 ![1, 1]
  scatter_S500000x1_S16000000x1_S16000000x1_1_0_0_1_wf : ScatterDims.WF S500000x1 S16000000x1 S16000000x1 [1] [0] [0] 1
  dot_S5000x4_S4x128_S5000x128_1_0_0_1_n_n_wf : DotDims.WF S5000x4 S4x128 S5000x128 [1] [0] [0] [1] [] []
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x4.size a ≤ S500000x4.size a
  hwx0_0 : ∀ i : grid0.Coords, EltTy.bits .f32 = 32 ∨ (Rect.block (s := S500000x4) S5000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x128.size a ≤ S4x128.size a
  hwx0_1 : ∀ i : grid0.Coords, EltTy.bits .f32 = 32 ∨ (Rect.block (s := S4x128) S4x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S128x1.size a
  hwx0_5 : ∀ i : grid0.Coords, EltTy.bits .f32 = 32 ∨ (Rect.block (s := S128x1) S128x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x1.size a ≤ S500000x1.size a
  hwx0_7 : ∀ i : grid0.Coords, EltTy.bits .f32 = 32 ∨ (Rect.block (s := S500000x1) S5000x1.size (cc0_transform_7 i) (hinb0_7 i)).WholeWords (EltTy.packing .f32)

variable [Facts₀]

def scatter_S500000_S16000000x1_S16000000_n_0_0_1 : ScatterDims S500000 S16000000x1 S16000000 where
  updateWindowDims := []
  insertedWindowDims := [0]
  scatterDimsToOperandDims := [0]
  indexVectorDim := 1
  wf := scatter_S500000_S16000000x1_S16000000_n_0_0_1_wf
def gather_S500000_S16000000x1_S16000000_n_0_n_n_0_1_1 : GatherDims S500000 S16000000x1 S16000000 where
  offsetDims := []
  collapsedSliceDims := [0]
  operandBatchingDims := []
  startIndicesBatchingDims := []
  startIndexMap := [0]
  indexVectorDim := 1
  sliceSizes := ![1]
  wf := gather_S500000_S16000000x1_S16000000_n_0_n_n_0_1_1_wf
def gather_S500000x1_S16000000x1_S16000000x1_1_0_n_n_0_1_11 : GatherDims S500000x1 S16000000x1 S16000000x1 where
  offsetDims := [1]
  collapsedSliceDims := [0]
  operandBatchingDims := []
  startIndicesBatchingDims := []
  startIndexMap := [0]
  indexVectorDim := 1
  sliceSizes := ![1, 1]
  wf := gather_S500000x1_S16000000x1_S16000000x1_1_0_n_n_0_1_11_wf
def scatter_S500000x1_S16000000x1_S16000000x1_1_0_0_1 : ScatterDims S500000x1 S16000000x1 S16000000x1 where
  updateWindowDims := [1]
  insertedWindowDims := [0]
  scatterDimsToOperandDims := [0]
  indexVectorDim := 1
  wf := scatter_S500000x1_S16000000x1_S16000000x1_1_0_0_1_wf
def dot_S5000x4_S4x128_S5000x128_1_0_0_1_n_n : DotDims S5000x4 S4x128 S5000x128 where
  lhsContracting := [1]
  rhsContracting := [0]
  lhsNonContracting := [0]
  rhsNonContracting := [1]
  lhsBatch := []
  rhsBatch := []
  wf := dot_S5000x4_S4x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_v65) S5000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v66) S4x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v67) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v68) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg10) S128x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v69) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v70) S5000x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S500000x1 : Shape := ⟨2, ![500000, 1]⟩
abbrev S2x16000000 : Shape := ⟨2, ![2, 16000000]⟩
abbrev S16000000 : Shape := ⟨1, ![16000000]⟩
abbrev S1x128 : Shape := ⟨2, ![1, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x16000000 : Shape := ⟨2, ![1, 16000000]⟩
abbrev S_ : Shape := ⟨0, ![]⟩
abbrev S500000 : Shape := ⟨1, ![500000]⟩
abbrev S16000000x1 : Shape := ⟨2, ![16000000, 1]⟩
abbrev S500000x128 : Shape := ⟨2, ![500000, 128]⟩
abbrev S1x1 : Shape := ⟨2, ![1, 1]⟩

abbrev nBuf : Space → Nat
  | .hbm => 123
  | .vmem => 0
  | .smem => 0
  | _ => 0

abbrev bufTy : (tb : Table) → Fin (tcTables nBuf tb) → BufTy
  | .hbm, ⟨0, _⟩ => ⟨S500000x1, .f32⟩
  | .hbm, ⟨1, _⟩ => ⟨S2x16000000, .i32⟩
  | .hbm, ⟨2, _⟩ => ⟨S16000000, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S1x16000000, .i32⟩
  | .hbm, ⟨13, _⟩ => ⟨S16000000, .i32⟩
  | .hbm, ⟨14, _⟩ => ⟨S1x16000000, .i32⟩
  | .hbm, ⟨15, _⟩ => ⟨S16000000, .i32⟩
  | .hbm, ⟨16, _⟩ => ⟨S_, .f32⟩
  | .hbm, ⟨17, _⟩ => ⟨S500000, .f32⟩
  | .hbm, ⟨18, _⟩ => ⟨S16000000x1, .i32⟩
  | .hbm, ⟨19, _⟩ => ⟨S500000, .f32⟩
  | .hbm, ⟨20, _⟩ => ⟨S_, .f32⟩
  | .hbm, ⟨21, _⟩ => ⟨S500000, .f32⟩
  | .hbm, ⟨22, _⟩ => ⟨S500000, .i1⟩
  | .hbm, ⟨23, _⟩ => ⟨S_, .f32⟩
  | .hbm, ⟨24, _⟩ => ⟨S500000, .f32⟩
  | .hbm, ⟨25, _⟩ => ⟨S500000, .f32⟩
  | .hbm, ⟨26, _⟩ => ⟨S500000, .f32⟩
  | .hbm, ⟨27, _⟩ => ⟨S_, .f32⟩
  | .hbm, ⟨28, _⟩ => ⟨S_, .f32⟩
  | .hbm, ⟨29, _⟩ => ⟨S500000, .f32⟩
  | .hbm, ⟨30, _⟩ => ⟨S500000, .f32⟩
  | .hbm, ⟨31, _⟩ => ⟨S_, .i32⟩
  | .hbm, ⟨32, _⟩ => ⟨S16000000, .i32⟩
  | .hbm, ⟨33, _⟩ => ⟨S16000000, .i1⟩
  | .hbm, ⟨34, _⟩ => ⟨S_, .i32⟩
  | .hbm, ⟨35, _⟩ => ⟨S16000000, .i32⟩
  | .hbm, ⟨36, _⟩ => ⟨S16000000, .i32⟩
  | .hbm, ⟨37, _⟩ => ⟨S16000000, .i32⟩
  | .hbm, ⟨38, _⟩ => ⟨S16000000x1, .i32⟩
  | .hbm, ⟨39, _⟩ => ⟨S16000000, .f32⟩
  | .hbm, ⟨40, _⟩ => ⟨S16000000, .f32⟩
  | .hbm, ⟨41, _⟩ => ⟨S_, .i32⟩
  | .hbm, ⟨42, _⟩ => ⟨S16000000, .i32⟩
  | .hbm, ⟨43, _⟩ => ⟨S16000000, .i1⟩
  | .hbm, ⟨44, _⟩ => ⟨S_, .i32⟩
  | .hbm, ⟨45, _⟩ => ⟨S16000000, .i32⟩
  | .hbm, ⟨46, _⟩ => ⟨S16000000, .i32⟩
  | .hbm, ⟨47, _⟩ => ⟨S16000000, .i32⟩
  | .hbm, ⟨48, _⟩ => ⟨S16000000x1, .i32⟩
  | .hbm, ⟨49, _⟩ => ⟨S16000000, .f32⟩
  | .hbm, ⟨50, _⟩ => ⟨S16000000, .f32⟩
  | .hbm, ⟨51, _⟩ => ⟨S500000x128, .f32⟩
  | .hbm, ⟨52, _⟩ => ⟨S16000000x1, .f32⟩
  | .hbm, ⟨53, _⟩ => ⟨S_, .i32⟩
  | .hbm, ⟨54, _⟩ => ⟨S16000000, .i32⟩
  | .hbm, ⟨55, _⟩ => ⟨S16000000, .i1⟩
  | .hbm, ⟨56, _⟩ => ⟨S_, .i32⟩
  | .hbm, ⟨57, _⟩ => ⟨S16000000, .i32⟩
  | .hbm, ⟨58, _⟩ => ⟨S16000000, .i32⟩
  | .hbm, ⟨59, _⟩ => ⟨S16000000, .i32⟩
  | .hbm, ⟨60, _⟩ => ⟨S16000000x1, .i32⟩
  | .hbm, ⟨61, _⟩ => ⟨S16000000x1, .f32⟩
  | .hbm, ⟨62, _⟩ => ⟨S16000000x1, .f32⟩
  | .hbm, ⟨63, _⟩ => ⟨S_, .f32⟩
  | .hbm, ⟨64, _⟩ => ⟨S500000x1, .f32⟩
  | .hbm, ⟨65, _⟩ => ⟨S16000000x1, .i32⟩
  | .hbm, ⟨66, _⟩ => ⟨S500000x1, .f32⟩
  | .hbm, ⟨67, _⟩ => ⟨S500000x128, .f32⟩
  | .hbm, ⟨68, _⟩ => ⟨S500000x128, .f32⟩
  | .hbm, ⟨69, _⟩ => ⟨S16000000x1, .f32⟩
  | .hbm, ⟨70, _⟩ => ⟨S_, .i32⟩
  | .hbm, ⟨71, _⟩ => ⟨S16000000, .i32⟩
  | .hbm, ⟨72, _⟩ => ⟨S16000000, .i1⟩
  | .hbm, ⟨73, _⟩ => ⟨S_, .i32⟩
  | .hbm, ⟨74, _⟩ => ⟨S16000000, .i32⟩
  | .hbm, ⟨75, _⟩ => ⟨S16000000, .i32⟩
  | .hbm, ⟨76, _⟩ => ⟨S16000000, .i32⟩
  | .hbm, ⟨77, _⟩ => ⟨S16000000x1, .i32⟩
  | .hbm, ⟨78, _⟩ => ⟨S16000000x1, .f32⟩
  | .hbm, ⟨79, _⟩ => ⟨S16000000x1, .f32⟩
  | .hbm, ⟨80, _⟩ => ⟨S_, .f32⟩
  | .hbm, ⟨81, _⟩ => ⟨S500000x1, .f32⟩
  | .hbm, ⟨82, _⟩ => ⟨S16000000x1, .i32⟩
  | .hbm, ⟨83, _⟩ => ⟨S500000x1, .f32⟩
  | .hbm, ⟨84, _⟩ => ⟨S500000x128, .f32⟩
  | .hbm, ⟨85, _⟩ => ⟨S500000x128, .f32⟩
  | .hbm, ⟨86, _⟩ => ⟨S16000000x1, .f32⟩
  | .hbm, ⟨87, _⟩ => ⟨S_, .i32⟩
  | .hbm, ⟨88, _⟩ => ⟨S16000000, .i32⟩
  | .hbm, ⟨89, _⟩ => ⟨S16000000, .i1⟩
  | .hbm, ⟨90, _⟩ => ⟨S_, .i32⟩
  | .hbm, ⟨91, _⟩ => ⟨S16000000, .i32⟩
  | .hbm, ⟨92, _⟩ => ⟨S16000000, .i32⟩
  | .hbm, ⟨93, _⟩ => ⟨S16000000, .i32⟩
  | .hbm, ⟨94, _⟩ => ⟨S16000000x1, .i32⟩
  | .hbm, ⟨95, _⟩ => ⟨S16000000x1, .f32⟩
  | .hbm, ⟨96, _⟩ => ⟨S16000000x1, .f32⟩
  | .hbm, ⟨97, _⟩ => ⟨S_, .f32⟩
  | .hbm, ⟨98, _⟩ => ⟨S500000x1, .f32⟩
  | .hbm, ⟨99, _⟩ => ⟨S16000000x1, .i32⟩
  | .hbm, ⟨100, _⟩ => ⟨S500000x1, .f32⟩
  | .hbm, ⟨101, _⟩ => ⟨S500000x128, .f32⟩
  | .hbm, ⟨102, _⟩ => ⟨S500000x128, .f32⟩
  | .hbm, ⟨103, _⟩ => ⟨S1x128, .f32⟩
  | .hbm, ⟨104, _⟩ => ⟨S500000x128, .f32⟩
  | .hbm, ⟨105, _⟩ => ⟨S500000x128, .f32⟩
  | .hbm, ⟨106, _⟩ => ⟨S_, .f32⟩
  | .hbm, ⟨107, _⟩ => ⟨S500000x128, .f32⟩
  | .hbm, ⟨108, _⟩ => ⟨S500000x128, .f32⟩
  | .hbm, ⟨109, _⟩ => ⟨S500000x128, .f32⟩
  | .hbm, ⟨110, _⟩ => ⟨S1x128, .f32⟩
  | .hbm, ⟨111, _⟩ => ⟨S500000x128, .f32⟩
  | .hbm, ⟨112, _⟩ => ⟨S500000x128, .f32⟩
  | .hbm, ⟨113, _⟩ => ⟨S_, .f32⟩
  | .hbm, ⟨114, _⟩ => ⟨S500000x128, .f32⟩
  | .hbm, ⟨115, _⟩ => ⟨S500000x128, .f32⟩
  | .hbm, ⟨116, _⟩ => ⟨S500000x1, .f32⟩
  | .hbm, ⟨117, _⟩ => ⟨S1x1, .f32⟩
  | .hbm, ⟨118, _⟩ => ⟨S500000x1, .f32⟩
  | .hbm, ⟨119, _⟩ => ⟨S500000x1, .f32⟩
  | .hbm, ⟨120, _⟩ => ⟨S_, .f32⟩
  | .hbm, ⟨121, _⟩ => ⟨S500000x1, .f32⟩
  | .hbm, ⟨122, _⟩ => ⟨S500000x1, .f32⟩
  | _, _ => ⟨S500000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_4 : Ref sig .tc := ⟨.hbm, 41, rfl⟩
abbrev main_v21 : Ref sig .tc := ⟨.hbm, 42, rfl⟩
abbrev main_v22 : Ref sig .tc := ⟨.hbm, 43, rfl⟩
abbrev main_c_5 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_8 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_9 : Ref sig .tc := ⟨.hbm, 70, rfl⟩
abbrev main_v45 : Ref sig .tc := ⟨.hbm, 71, rfl⟩
abbrev main_v46 : Ref sig .tc := ⟨.hbm, 72, rfl⟩
abbrev main_c_10 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_11 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_c_12 : Ref sig .tc := ⟨.hbm, 87, rfl⟩
abbrev main_v59 : Ref sig .tc := ⟨.hbm, 88, rfl⟩
abbrev main_v60 : Ref sig .tc := ⟨.hbm, 89, rfl⟩
abbrev main_c_13 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_14 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_call1_cst : Ref sig .tc := ⟨.hbm, 106, rfl⟩
abbrev main_call1_v0 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_call2_cst : Ref sig .tc := ⟨.hbm, 113, rfl⟩
abbrev main_call2_v0 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_call3_cst : Ref sig .tc := ⟨.hbm, 120, rfl⟩
abbrev main_call3_v0 : Ref sig .tc := ⟨.hbm, 121, rfl⟩
abbrev main_v85 : Ref sig .tc := ⟨.hbm, 122, rfl⟩

abbrev nD : Nat := 1
abbrev τ : Topo := Topo.v7x

variable {F : FTy → Type} [FloatOps F]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  bcast_S_S500000 : S_.BroadcastsInDim S500000 (![] : Fin 0 → Fin S500000.rank)
  bcast_S16000000_S16000000x1_0 : S16000000.BroadcastsInDim S16000000x1 (![0] : Fin 1 → Fin S16000000x1.rank)
  bcast_S_S16000000 : S_.BroadcastsInDim S16000000 (![] : Fin 0 → Fin S16000000.rank)
  bcast_S_S500000x1 : S_.BroadcastsInDim S500000x1 (![] : Fin 0 → Fin S500000x1.rank)
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  scatter_S500000_S16000000x1_S16000000_n_0_0_1_wf : ScatterDims.WF S500000 S16000000x1 S16000000 [] [0] [0] 1
  gather_S500000_S16000000x1_S16000000_n_0_n_n_0_1_1_wf : GatherDims.WF S500000 S16000000x1 S16000000 [] [0] [] [0] [] 1 ![1]
  dot_S500000x1_S1x128_S500000x128_1_0_0_1_n_n_wf : DotDims.WF S500000x1 S1x128 S500000x128 [1] [0] [0] [1] [] []
  gather_S500000x1_S16000000x1_S16000000x1_1_0_n_n_0_1_11_wf : GatherDims.WF S500000x1 S16000000x1 S16000000x1 [1] [0] [] [0] [] 1 ![1, 1]
  scatter_S500000x1_S16000000x1_S16000000x1_1_0_0_1_wf : ScatterDims.WF S500000x1 S16000000x1 S16000000x1 [1] [0] [0] 1
  dot_S500000x128_S128x128_S500000x128_1_0_0_1_n_n_wf : DotDims.WF S500000x128 S128x128 S500000x128 [1] [0] [0] [1] [] []
  dot_S500000x128_S128x1_S500000x1_1_0_0_1_n_n_wf : DotDims.WF S500000x128 S128x1 S500000x1 [1] [0] [0] [1] [] []

variable [Facts₀]

def scatter_S500000_S16000000x1_S16000000_n_0_0_1 : ScatterDims S500000 S16000000x1 S16000000 where
  updateWindowDims := []
  insertedWindowDims := [0]
  scatterDimsToOperandDims := [0]
  indexVectorDim := 1
  wf := scatter_S500000_S16000000x1_S16000000_n_0_0_1_wf
def gather_S500000_S16000000x1_S16000000_n_0_n_n_0_1_1 : GatherDims S500000 S16000000x1 S16000000 where
  offsetDims := []
  collapsedSliceDims := [0]
  operandBatchingDims := []
  startIndicesBatchingDims := []
  startIndexMap := [0]
  indexVectorDim := 1
  sliceSizes := ![1]
  wf := gather_S500000_S16000000x1_S16000000_n_0_n_n_0_1_1_wf
def dot_S500000x1_S1x128_S500000x128_1_0_0_1_n_n : DotDims S500000x1 S1x128 S500000x128 where
  lhsContracting := [1]
  rhsContracting := [0]
  lhsNonContracting := [0]
  rhsNonContracting := [1]
  lhsBatch := []
  rhsBatch := []
  wf := dot_S500000x1_S1x128_S500000x128_1_0_0_1_n_n_wf
def gather_S500000x1_S16000000x1_S16000000x1_1_0_n_n_0_1_11 : GatherDims S500000x1 S16000000x1 S16000000x1 where
  offsetDims := [1]
  collapsedSliceDims := [0]
  operandBatchingDims := []
  startIndicesBatchingDims := []
  startIndexMap := [0]
  indexVectorDim := 1
  sliceSizes := ![1, 1]
  wf := gather_S500000x1_S16000000x1_S16000000x1_1_0_n_n_0_1_11_wf
def scatter_S500000x1_S16000000x1_S16000000x1_1_0_0_1 : ScatterDims S500000x1 S16000000x1 S16000000x1 where
  updateWindowDims := [1]
  insertedWindowDims := [0]
  scatterDimsToOperandDims := [0]
  indexVectorDim := 1
  wf := scatter_S500000x1_S16000000x1_S16000000x1_1_0_0_1_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def dot_S500000x128_S128x1_S500000x1_1_0_0_1_n_n : DotDims S500000x128 S128x1 S500000x1 where
  lhsContracting := [1]
  rhsContracting := [0]
  lhsNonContracting := [0]
  rhsNonContracting := [1]
  lhsBatch := []
  rhsBatch := []
  wf := dot_S500000x128_S128x1_S500000x1_1_0_0_1_n_n_wf

class Facts : Prop extends Facts₀ where

variable [Facts]
-- ==== Proof.KernelFrame.lean ====
/-
  The frame of `Kernel`: @main runs its host lines, then one pipelined region of 100 grid points, and ends with every
  argument array unchanged.

  The host lines before the region only write their own result buffers, so each argument array reaches the region as
  launched. In the region, point `t` stages rows `5000 t … 5000 t + 4999` of the stacked features (window 0), the whole
  of the six parameter arrays (windows 1–6, fetched once), and writes back rows `5000 t … 5000 t + 4999` of the result
  (window 7). The body loads the seven input blocks whole, computes one value from them (three matrix products, each
  followed by a bias row and a maximum with zero) and stores it over the whole output block; it also loads the output
  block first, a value it never uses. So after the body each input buffer holds the block it held and the output
  buffer holds that one value: this is the proof data, and the body's triple is run symbolically. Everything is
  generic in the float instance.
-/
import proofs.«178473_j4784593568488_1_alg».proof.Proof.Gen.Kernel.Launch
import proofs.«178473_j4784593568488_1_alg».proof.Proof.Gen.Kernel.Skeleton
import proofs.«178473_j4784593568488_1_alg».proof.Proof.Gen.Kernel.Points
import Idealize.ShloMosaic.Lib.Pipeline.FrameBody
import Idealize.ShloMosaic.Lib.Ring
import Idealize.ShloMosaic.Lib.Tactic
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The device's buffers when the region is entered: the launch contents after the three stretches of host lines. -/
abbrev V (c : Dev nD) (b : Ref sig .tc) : Buf (Elt F) ((c : Thread nD τ).loc b) :=
  StableHlo.after (List.flatten [hostOps0, hostOps0_1, hostOps0_2]) (fun b => m (c, b)) b

/-- No host line allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
set_option maxHeartbeats 4000000 in
theorem hostOps0_2_fresh : (hostOps0_2 : List (HloOp τ sig (Elt F))).Forall fun op => op.fresh = ∅ := by
  simp only [List.Forall]; repeat' constructor

/-- @main is the host lines, then the region: holding the unscoped buffers at the launch contents it reaches the
    region holding them at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

set_option maxHeartbeats 4000000 in
/-- No host line writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
set_option maxHeartbeats 4000000 in
/-- No host line writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
set_option maxHeartbeats 4000000 in
/-- No host line writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
set_option maxHeartbeats 4000000 in
/-- No host line writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
set_option maxHeartbeats 4000000 in
/-- No host line writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
set_option maxHeartbeats 4000000 in
/-- No host line writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
set_option maxHeartbeats 4000000 in
/-- No host line writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
set_option maxHeartbeats 4000000 in
/-- No host line writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
set_option maxHeartbeats 4000000 in
/-- No host line writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
set_option maxHeartbeats 4000000 in
/-- No host line writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
set_option maxHeartbeats 4000000 in
/-- No host line writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
set_option maxHeartbeats 4000000 in
/-- No host line writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (when it is not
    fetched its block index has not moved), for any proof data over `V` whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (when it is not
    fetched its block index has not moved), for any proof data over `V` whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (when it is not
    fetched its block index has not moved), for any proof data over `V` whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (when it is not
    fetched its block index has not moved), for any proof data over `V` whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not (when it is not
    fetched its block index has not moved), for any proof data over `V` whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not (when it is not
    fetched its block index has not moved), for any proof data over `V` whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not (when it is not
    fetched its block index has not moved), for any proof data over `V` whose body leaves the block in place. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- In a final state that has every window's array at the library's value of the proof data and every other unscoped
    buffer as the region found it, the argument arrays are as launched: a staged argument is an input window's array,
    any other is untouched by the region, and none was written by a host line. -/
theorem kept_args (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).1 3).trans (((dats 0 c).arrAt_in 3 rfl _).trans ((hA c 3).trans (V_main_arg8 m c))),
      ((h c).2 main_arg9 (Pipeline.mem_restRefs_of main_arg9 (by decide) (by decide))).trans (V_main_arg9 m c),
      ((h c).1 5).trans (((dats 0 c).arrAt_in 5 rfl _).trans ((hA c 5).trans (V_main_arg10 m c))),
      ((h c).2 main_arg11 (Pipeline.mem_restRefs_of main_arg11 (by decide) (by decide))).trans (V_main_arg11 m c)⟩

/-- So a run to such a state is a run at whose end the argument arrays are unchanged. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => kept_args m dats hA r h c) h

/-! ## The body's accesses: each buffer whole -/

abbrev rH : Rect S5000x4 := Rect.unit (s := S5000x4) ![0, 0] S5000x4.size inb_S5000x4_S5000x4_0_0
abbrev rW : Rect S4x128 := Rect.unit (s := S4x128) ![0, 0] S4x128.size inb_S4x128_S4x128_0_0
abbrev rB : Rect S1x128 := Rect.unit (s := S1x128) ![0, 0] S1x128.size inb_S1x128_S1x128_0_0
abbrev rM : Rect S128x128 := Rect.unit (s := S128x128) ![0, 0] S128x128.size inb_S128x128_S128x128_0_0
abbrev rC : Rect S128x1 := Rect.unit (s := S128x1) ![0, 0] S128x1.size inb_S128x1_S128x1_0_0
abbrev rS : Rect S1x1 := Rect.unit (s := S1x1) ![0, 0] S1x1.size inb_S1x1_S1x1_0_0
abbrev rY : Rect S5000x1 := Rect.unit (s := S5000x1) ![0, 0] S5000x1.size inb_S5000x1_S5000x1_0_0

/-! ## What the body leaves in the output window's buffer -/

/-- The output buffer after the body: its one store, over the whole buffer, of the body's value of the seven input blocks. -/
def out7 (x0 : Vec F S5000x4 .f32) (x1 : Vec F S4x128 .f32) (x2 : Vec F S1x128 .f32) (x3 : Vec F S128x128 .f32) (x4 : Vec F S1x128 .f32) (x5 : Vec F S128x1 .f32) (x6 : Vec F S1x1 .f32) : Vec F S5000x1 .f32 :=
  View.canon [⟨rY, k0_pay1 (View.ld x0 rH) (View.ld x1 rW) (View.ld x2 rB) (View.ld x3 rM) (View.ld x4 rB) (View.ld x5 rC) (View.ld x6 rS)⟩]

/-- The one store covers the buffer. -/
theorem cover7 (p0 : Vec F S5000x1 .f32) (y : S5000x1.Idx) :
    ∃ pc ∈ ([⟨rY, p0⟩] : List (View.Piece (Elt F) S5000x1 .f32)), y ∈ pc.1.set :=
  View.cover_of_tiled [⟨rY, p0⟩] S5000x1.size (by rfl) y

/-! ## The body's triple -/

set_option maxHeartbeats 4000000 in
/-- The body on whole staging buffers, the inputs' at contents `x0 … x6` and the output's at anything, runs to its
    continuation with the inputs' buffers as they were and the output's at `out7` of the inputs. -/
theorem sound_kernel (c : Dev nD) (E : Set ℕ) (i : grid0.Coords) (arg1 : Memref sig .tc .vmem S5000x4 .f32) (harg1 : arg1.IsWhole) (arg2 : Memref sig .tc .vmem S4x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S5000x1 .f32) (harg8 : arg8.IsWhole)
    (x0 : Vec F S5000x4 .f32) (x1 : Vec F S4x128 .f32) (x2 : Vec F S1x128 .f32) (x3 : Vec F S128x128 .f32) (x4 : Vec F S1x128 .f32) (x5 : Vec F S128x1 .f32) (x6 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out7 x0 x1 x2 x3 x4 x5 x6)) -∗ K ⟨⟩))
      ⊢ wp frame (wpE (defs₀ (F := F)) Variants.none c none) E (cc0__combine_mlp_kernel i arg1 harg1 arg2 harg2 arg3 harg3 arg4 harg4 arg5 harg5 arg6 harg6 arg7 harg7 arg8 harg8) K := by
  simp only [cc0__combine_mlp_kernel_eq_skeleton]; unfold cc0__combine_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover7 _)

/-! ## The pipeline's proof data -/

/-- The arrays as the region finds them; after the body at point `t` each input's buffer at its block and the output's
    at `out7` of the input blocks; the invariant the scoped rest and the generator register, untouched; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = out7 (iblk m c 0 t) (iblk m c 1 t) (iblk m c 2 t) (iblk m c 3 t) (iblk m c 4 t) (iblk m c 5 t) (iblk m c 6 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 4000000 in
/-- The body at any point: the inputs' buffers hold their blocks, so `sound_kernel` applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each window's array at the library's
    value of the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main terminates without a fault and the twelve argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

end Cert.Kernel.Hand

end
-- ==== Proof.KernelIdealFrame.lean ====
/-
  The frame of `KernelIdeal`: @main runs its host lines, then one pipelined region of 100 grid points, and ends with every
  argument array unchanged.

  The host lines before the region only write their own result buffers, so each argument array reaches the region as
  launched. In the region, point `t` stages rows `5000 t … 5000 t + 4999` of the stacked features (window 0), the whole
  of the six parameter arrays (windows 1–6, fetched once), and writes back rows `5000 t … 5000 t + 4999` of the result
  (window 7). The body loads the seven input blocks whole, computes one value from them (three matrix products, each
  followed by a bias row and a maximum with zero) and stores it over the whole output block; it also loads the output
  block first, a value it never uses. So after the body each input buffer holds the block it held and the output
  buffer holds that one value: this is the proof data, and the body's triple is run symbolically. Everything is
  generic in the float instance.
-/
import proofs.«178473_j4784593568488_1_alg».proof.Proof.Gen.KernelIdeal.Launch
import proofs.«178473_j4784593568488_1_alg».proof.Proof.Gen.KernelIdeal.Skeleton
import proofs.«178473_j4784593568488_1_alg».proof.Proof.Gen.KernelIdeal.Points
import Idealize.ShloMosaic.Lib.Pipeline.FrameBody
import Idealize.ShloMosaic.Lib.Ring
import Idealize.ShloMosaic.Lib.Tactic
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The device's buffers when the region is entered: the launch contents after the three stretches of host lines. -/
abbrev V (c : Dev nD) (b : Ref sig .tc) : Buf (Elt F) ((c : Thread nD τ).loc b) :=
  StableHlo.after (List.flatten [hostOps0, hostOps0_1, hostOps0_2]) (fun b => m (c, b)) b

/-- No host line allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
set_option maxHeartbeats 4000000 in
theorem hostOps0_2_fresh : (hostOps0_2 : List (HloOp τ sig (Elt F))).Forall fun op => op.fresh = ∅ := by
  simp only [List.Forall]; repeat' constructor

/-- @main is the host lines, then the region: holding the unscoped buffers at the launch contents it reaches the
    region holding them at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

set_option maxHeartbeats 4000000 in
/-- No host line writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
set_option maxHeartbeats 4000000 in
/-- No host line writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
set_option maxHeartbeats 4000000 in
/-- No host line writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
set_option maxHeartbeats 4000000 in
/-- No host line writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
set_option maxHeartbeats 4000000 in
/-- No host line writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
set_option maxHeartbeats 4000000 in
/-- No host line writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
set_option maxHeartbeats 4000000 in
/-- No host line writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
set_option maxHeartbeats 4000000 in
/-- No host line writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
set_option maxHeartbeats 4000000 in
/-- No host line writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
set_option maxHeartbeats 4000000 in
/-- No host line writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
set_option maxHeartbeats 4000000 in
/-- No host line writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
set_option maxHeartbeats 4000000 in
/-- No host line writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (when it is not
    fetched its block index has not moved), for any proof data over `V` whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (when it is not
    fetched its block index has not moved), for any proof data over `V` whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (when it is not
    fetched its block index has not moved), for any proof data over `V` whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (when it is not
    fetched its block index has not moved), for any proof data over `V` whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not (when it is not
    fetched its block index has not moved), for any proof data over `V` whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not (when it is not
    fetched its block index has not moved), for any proof data over `V` whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not (when it is not
    fetched its block index has not moved), for any proof data over `V` whose body leaves the block in place. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- In a final state that has every window's array at the library's value of the proof data and every other unscoped
    buffer as the region found it, the argument arrays are as launched: a staged argument is an input window's array,
    any other is untouched by the region, and none was written by a host line. -/
theorem kept_args (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).1 3).trans (((dats 0 c).arrAt_in 3 rfl _).trans ((hA c 3).trans (V_main_arg8 m c))),
      ((h c).2 main_arg9 (Pipeline.mem_restRefs_of main_arg9 (by decide) (by decide))).trans (V_main_arg9 m c),
      ((h c).1 5).trans (((dats 0 c).arrAt_in 5 rfl _).trans ((hA c 5).trans (V_main_arg10 m c))),
      ((h c).2 main_arg11 (Pipeline.mem_restRefs_of main_arg11 (by decide) (by decide))).trans (V_main_arg11 m c)⟩

/-- So a run to such a state is a run at whose end the argument arrays are unchanged. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => kept_args m dats hA r h c) h

/-! ## The body's accesses: each buffer whole -/

abbrev rH : Rect S5000x4 := Rect.unit (s := S5000x4) ![0, 0] S5000x4.size inb_S5000x4_S5000x4_0_0
abbrev rW : Rect S4x128 := Rect.unit (s := S4x128) ![0, 0] S4x128.size inb_S4x128_S4x128_0_0
abbrev rB : Rect S1x128 := Rect.unit (s := S1x128) ![0, 0] S1x128.size inb_S1x128_S1x128_0_0
abbrev rM : Rect S128x128 := Rect.unit (s := S128x128) ![0, 0] S128x128.size inb_S128x128_S128x128_0_0
abbrev rC : Rect S128x1 := Rect.unit (s := S128x1) ![0, 0] S128x1.size inb_S128x1_S128x1_0_0
abbrev rS : Rect S1x1 := Rect.unit (s := S1x1) ![0, 0] S1x1.size inb_S1x1_S1x1_0_0
abbrev rY : Rect S5000x1 := Rect.unit (s := S5000x1) ![0, 0] S5000x1.size inb_S5000x1_S5000x1_0_0

/-! ## What the body leaves in the output window's buffer -/

/-- The output buffer after the body: its one store, over the whole buffer, of the body's value of the seven input blocks. -/
def out7 (x0 : Vec F S5000x4 .f32) (x1 : Vec F S4x128 .f32) (x2 : Vec F S1x128 .f32) (x3 : Vec F S128x128 .f32) (x4 : Vec F S1x128 .f32) (x5 : Vec F S128x1 .f32) (x6 : Vec F S1x1 .f32) : Vec F S5000x1 .f32 :=
  View.canon [⟨rY, k0_pay1 (View.ld x0 rH) (View.ld x1 rW) (View.ld x2 rB) (View.ld x3 rM) (View.ld x4 rB) (View.ld x5 rC) (View.ld x6 rS)⟩]

/-- The one store covers the buffer. -/
theorem cover7 (p0 : Vec F S5000x1 .f32) (y : S5000x1.Idx) :
    ∃ pc ∈ ([⟨rY, p0⟩] : List (View.Piece (Elt F) S5000x1 .f32)), y ∈ pc.1.set :=
  View.cover_of_tiled [⟨rY, p0⟩] S5000x1.size (by rfl) y

/-! ## The body's triple -/

set_option maxHeartbeats 4000000 in
/-- The body on whole staging buffers, the inputs' at contents `x0 … x6` and the output's at anything, runs to its
    continuation with the inputs' buffers as they were and the output's at `out7` of the inputs. -/
theorem sound_kernel (c : Dev nD) (E : Set ℕ) (i : grid0.Coords) (arg1 : Memref sig .tc .vmem S5000x4 .f32) (harg1 : arg1.IsWhole) (arg2 : Memref sig .tc .vmem S4x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S5000x1 .f32) (harg8 : arg8.IsWhole)
    (x0 : Vec F S5000x4 .f32) (x1 : Vec F S4x128 .f32) (x2 : Vec F S1x128 .f32) (x3 : Vec F S128x128 .f32) (x4 : Vec F S1x128 .f32) (x5 : Vec F S128x1 .f32) (x6 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out7 x0 x1 x2 x3 x4 x5 x6)) -∗ K ⟨⟩))
      ⊢ wp frame (wpE (defs₀ (F := F)) Variants.none c none) E (cc0__combine_mlp_kernel i arg1 harg1 arg2 harg2 arg3 harg3 arg4 harg4 arg5 harg5 arg6 harg6 arg7 harg7 arg8 harg8) K := by
  simp only [cc0__combine_mlp_kernel_eq_skeleton]; unfold cc0__combine_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover7 _)

/-! ## The pipeline's proof data -/

/-- The arrays as the region finds them; after the body at point `t` each input's buffer at its block and the output's
    at `out7` of the input blocks; the invariant the scoped rest and the generator register, untouched; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = out7 (iblk m c 0 t) (iblk m c 1 t) (iblk m c 2 t) (iblk m c 3 t) (iblk m c 4 t) (iblk m c 5 t) (iblk m c 6 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 4000000 in
/-- The body at any point: the inputs' buffers hold their blocks, so `sound_kernel` applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each window's array at the library's
    value of the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main terminates without a fault and the twelve argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

end Cert.KernelIdeal.Hand

end
-- ==== Proof.Spec.lean ====
/-
  The dense stage, row by row, on the extended reals.

  Both programs end with the same three layers applied to each node's row `o : Fin 128 → EReal` of combined hop
  features: add the bias row and take the maximum with zero; multiply by the 128 × 128 matrix, add the second bias row,
  maximum with zero; multiply by the 128 × 1 column, add the last bias, maximum with zero. `tail` is that function.
  What differs between the two programs is only how the row `o` is summed: one product of the stacked features
  `[x, h₁, h₂, h₃]` (a sum over four hops), or four products of one term each added left to right. `sum_hops` is the
  law that joins them: a sum over `Fin 4` is its four terms added left to right, and a sum over `Fin 1` is its one
  term. Only the associativity built into the notation is used, so the law holds at the infinities too.
-/
import Idealize.ShloMosaic.Lib.ValueIdx
import Idealize.ShloMosaic.PureOps.Ideal

noncomputable section

open scoped BigOperators

namespace Cert.Spec

open Idealize.ShloMosaic

/-- The value of the zero word `0x00000000`: what every maximum is taken against. -/
abbrev Z : EReal := Ideal.ofBits .f32 0x00000000#32

/-- The three layers after the hop combination, for one node: `o` the node's combined row, `b0`, `b1`, `b2` the
    biases, `w1` the square matrix, `w2` the final column. -/
def tail (o b0 b1 : Fin 128 → EReal) (w1 : Fin 128 → Fin 128 → EReal) (w2 : Fin 128 → EReal) (b2 : EReal) : EReal :=
  max ((∑ j : Fin 128, max ((∑ l : Fin 128, max (o l + b0 l) Z * w1 l j) + b1 j) Z * w2 j) + b2) Z

/-- A sum over the four hops is the hop products added left to right, each a one-term sum. -/
theorem sum_hops (f : Fin 4 → EReal) (g0 g1 g2 g3 : Fin 1 → EReal)
    (h0 : g0 0 = f 0) (h1 : g1 0 = f 1) (h2 : g2 0 = f 2) (h3 : g3 0 = f 3) :
    (∑ k : Fin 1, g0 k) + (∑ k : Fin 1, g1 k) + (∑ k : Fin 1, g2 k) + (∑ k : Fin 1, g3 k) = ∑ k : Fin 4, f k := by
  rw [Fin.sum_univ_four, Fin.sum_univ_one, Fin.sum_univ_one, Fin.sum_univ_one, Fin.sum_univ_one, h0, h1, h2, h3]

end Cert.Spec

end
-- ==== Proof.LibBlock.lean ====
/-
  Blocks read at an index: the vocabulary the three regions share.

  * `hz`: the zero offsets of a rank-2 rectangle, spelt as the constant function;
  * `matmul_zero_ix2`: a plain matrix product `[M, K] × [K, N]` accumulated into the zero splat, read at `(p, q)`, is
    the sum over the contracted coordinate `k : Fin K` of `lhs (p, k) * rhs (k, q)` (any `K`);
  * `lhsIdx_val_row`, `rhsIdx_val_col`: the non-contracted coordinates of the two operand indices.
  (A `[1, n]` row broadcast over `m` rows, read at `(p, c)`, is the library's `ValueIdx.broadcastTo_1b_ab_apply`.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibBlock

open Idealize.ShloMosaic Idealize.ShloMosaic.ValueIdx

/-- The zero offsets of a rank-2 rectangle are the constant function `0`. -/
theorem hz : (![0, 0] : Fin 2 → Nat) = fun _ => 0 := funext fun a => by fin_cases a <;> rfl

section Matmul
variable {M K N : Nat} (D : DotDims ⟨2, ![M, K]⟩ ⟨2, ![K, N]⟩ ⟨2, ![M, N]⟩)

/-- With no batch axis and the left operand's rows its one free axis, the left operand index has the result's row. -/
theorem lhsIdx_val_row (hlb : D.lhsBatch = []) (hln : D.lhsNonContracting = [0])
    (j : (⟨2, ![M, N]⟩ : Shape).Idx) (k : D.contr.Idx) : (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln])

/-- With no batch axis, one free axis on the left and the right operand's columns its one free axis, the right operand
    index has the result's column. -/
theorem rhsIdx_val_col (hlb : D.lhsBatch = []) (hln : D.lhsNonContracting = [0]) (hrb : D.rhsBatch = [])
    (hrn : D.rhsNonContracting = [1])
    (j : (⟨2, ![M, N]⟩ : Shape).Idx) (k : D.contr.Idx) : (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln, hrn])

/-- A plain matrix product `[M, K] × [K, N]` into the zero accumulator, read at `(p, q)`:
    `∑ₖ lhs (p, k) * rhs (k, q)`, the sum over the contracted coordinate. -/
theorem matmul_zero_ix2 (hlc : D.lhsContracting = [1]) (hrc : D.rhsContracting = [0])
    (hlb : D.lhsBatch = []) (hln : D.lhsNonContracting = [0]) (hrb : D.rhsBatch = []) (hrn : D.rhsNonContracting = [1])
    {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  have hr : D.contr.rank = 1 := by rw [D.rank_contr, hlc]; rfl
  have hs : D.contr.size ⟨0, by omega⟩ = K := by
    have h := D.size_contr 0 (by rw [hlc]; exact Nat.one_pos)
    refine h.trans ?_
    have e : D.lhsContracting[0]'(by rw [hlc]; exact Nat.one_pos) = 1 := by simp [hlc]
    rw [e]; rfl
  refine (Ideal.matmul_constant_zero_apply D prec lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_val_row D hlb hln _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact rhsIdx_val_col D hlb hln hrb hrn _ _)
  rw [el, er]

end Matmul

end Cert.LibBlock

end
-- ==== Proof.KernelBody.lean ====
/-
  The kernel body's value, read at one row of its block, on the extended reals.

  The body's one stored value is: the 5000 × 4 feature block times the 4 × 128 stacked hop weights; plus the bias row,
  maximum with zero; times the 128 × 128 matrix; plus the second bias row, maximum with zero; times the 128 × 1 column;
  plus the last bias, maximum with zero. Changes of float format are the identity here, each matrix product into the
  zero accumulator is the sum over its contracted coordinate, a one-row array broadcast over the rows reads its one
  row, and a scalar splat reads the scalar. So row `y` of the stored value is `Spec.tail` of row `y` of the first
  product.
-/
import proofs.«178473_j4784593568488_1_alg».proof.Proof.Gen.KernelIdeal.Skeleton
import proofs.«178473_j4784593568488_1_alg».proof.Proof.Spec
import proofs.«178473_j4784593568488_1_alg».proof.Proof.LibBlock
import Idealize.ShloMosaic.Lib.ValueLayout

noncomputable section

open scoped BigOperators

namespace Cert.KernelIdeal.Body

open Cert.KernelIdeal Cert.KernelIdeal.Gen Idealize.ShloMosaic Idealize.ShloMosaic.ValueIdx Cert.Spec

/-- Row `y` of the body's stored value: the three layers applied to row `y` of the block times the stacked weights. -/
theorem pay_at (v0 : Vec Ideal S5000x4 .f32) (v3 : Vec Ideal S4x128 .f32) (v7 : Vec Ideal S1x128 .f32)
    (v14 : Vec Ideal S128x128 .f32) (v17 : Vec Ideal S1x128 .f32) (v24 : Vec Ideal S128x1 .f32) (v27 : Vec Ideal S1x1 .f32)
    (y : Fin 5000) (u : Fin 1) :
    k0_pay1 (F := Ideal) v0 v3 v7 v14 v17 v24 v27 (ix2 y u)
      = tail (fun l => ∑ k : Fin 4, v0 (ix2 y k) * v3 (ix2 k l)) (fun l => v7 (ix2 0 l)) (fun j => v17 (ix2 0 j))
          (fun l j => v14 (ix2 l j)) (fun j => v24 (ix2 j 0)) (v27 (ix2 0 0)) := by
  have hu : u = 0 := Subsingleton.elim _ _
  subst hu
  unfold k0_pay1 tail
  simp only [maximumf_apply, addf_apply, broadcast_apply, truncf_apply,
    LibBlock.matmul_zero_ix2 dot_S5000x128_S128x1_S5000x1_1_0_0_1_n_n rfl rfl rfl rfl rfl rfl,
    LibBlock.matmul_zero_ix2 dot_S5000x128_S128x128_S5000x128_1_0_0_1_n_n rfl rfl rfl rfl rfl rfl,
    LibBlock.matmul_zero_ix2 dot_S5000x4_S4x128_S5000x128_1_0_0_1_n_n rfl rfl rfl rfl rfl rfl,
    broadcastTo_1b_ab_apply, shapeCast_self]
  rfl

end Cert.KernelIdeal.Body

end
-- ==== Proof.KernelArrays.lean ====
/-
  From blocks to the array: what the kernel's result array holds after the run, on the extended reals.

  The region's grid has 100 points. Point `t` reads rows `5000 t … 5000 t + 4999` of the stacked features and the whole of
  each parameter array (their block index is constantly zero), and writes rows `5000 t … 5000 t + 4999` of the result.
  Row `y` of what it writes is the three layers of row `y` of its feature block (`Body.pay_at`), that is of row
  `5000 t + y` of the stacked features: so what each point writes back is its block of ONE whole-array function `rowsOf`
  of the arrays the region finds. Every row `r` lies in the block of point `r / 5000`, so the blocks cover the result
  and the result array ends holding `rowsOf`.
-/
import proofs.«178473_j4784593568488_1_alg».proof.Proof.KernelIdealFrame
import proofs.«178473_j4784593568488_1_alg».proof.Proof.KernelBody
import Idealize.ShloMosaic.Lib.Pipeline.Value

set_option maxRecDepth 16384

noncomputable section

open scoped BigOperators

namespace Cert.KernelIdeal.Arrays

open Cert.KernelIdeal Cert.KernelIdeal.Gen Cert.KernelIdeal.Hand Idealize.ShloMosaic Idealize.ShloMosaic.TcCoe Idealize.SL.Sem
open Idealize.ShloMosaic.ValueIdx Cert.Spec
open Idealize.ShloMosaic.Pipeline (Dat)

variable (m : (ℓ : Loc nD τ sig) → Buf (Elt Ideal) ℓ) (ρ : Dev nD → PrngReg)

-- the arrays the region finds are a long fold over the host lines: here they are only ever compared by name
set_option allowUnsafeReducibility true in
attribute [local irreducible] Cert.KernelIdeal.Hand.V

/-- One row of the result: the three layers of row `p` of the stacked features times the stacked hop weights. -/
def rowOf (H : S500000x4.Idx → EReal) (Wst : S4x128.Idx → EReal) (b0 : S1x128.Idx → EReal) (w1 : S128x128.Idx → EReal)
    (b1 : S1x128.Idx → EReal) (w2 : S128x1.Idx → EReal) (b2 : S1x1.Idx → EReal) (p : Fin 500000) : EReal :=
  tail (fun l => ∑ k : Fin 4, H (ix2 p k) * Wst (ix2 k l)) (fun l => b0 (ix2 0 l)) (fun j => b1 (ix2 0 j))
    (fun l j => w1 (ix2 l j)) (fun j => w2 (ix2 j 0)) (b2 (ix2 0 0))

/-- The result as ONE function of the arrays the region finds: at index `i`, the row `i 0`. -/
def rowsOf (H : S500000x4.Idx → EReal) (Wst : S4x128.Idx → EReal) (b0 : S1x128.Idx → EReal) (w1 : S128x128.Idx → EReal)
    (b1 : S1x128.Idx → EReal) (w2 : S128x1.Idx → EReal) (b2 : S1x1.Idx → EReal) : S500000x1.Idx → EReal :=
  fun i => rowOf H Wst b0 w1 b1 w2 b2 (i 0)

/-- The printed index maps, decided over the grid: the feature window moves with the result window along the rows, and
    every other block index is zero; the result's row block index is below 100. -/
theorem idx_facts : ∀ t : Fin cfg0.N, win0_0.index t (0 : Fin 2) = win0_7.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (1 : Fin 2) = 0 ∧ win0_7.index t (0 : Fin 2) ≤ 99 :=
  (by decide +kernel : ∀ t : Fin grid0.N, _)

/-- Every row block of the result is some point's. -/
theorem idx_onto : ∀ q : Fin 100, ∃ t : Fin cfg0.N, win0_7.index t = ![q.val, 0] :=
  (by decide +kernel : ∀ q : Fin 100, ∃ t : Fin grid0.N, win0_7.index t = ![q.val, 0])

set_option maxHeartbeats 1600000 in
/-- What point `t` writes back is block `t` of `rowsOf` of the arrays the region finds. -/
theorem flushed7_eq (c : Dev nD) (t : Fin cfg0.N) :
    (dats m 0 c).flushed 7 t = ((cfg0.win 7).blk t).view.read (Elt Ideal)
      (rowsOf (V m c main_v65) (V m c main_v66) (V m c main_v67) (V m c main_arg8) (V m c main_v68) (V m c main_arg10) (V m c main_v69)) := by
  show (cfg0.win 7).cut (grid0.coords t) ((dats m 0 c).after 7 t) = _
  rw [after7]
  unfold out7
  rw [View.canon_unit_zero LibBlock.hz]
  simp only [View.ld_unit_zero (S := S5000x4) LibBlock.hz, View.ld_unit_zero (S := S4x128) LibBlock.hz,
    View.ld_unit_zero (S := S1x128) LibBlock.hz, View.ld_unit_zero (S := S128x128) LibBlock.hz,
    View.ld_unit_zero (S := S128x1) LibBlock.hz, View.ld_unit_zero (S := S1x1) LibBlock.hz]
  obtain ⟨e00, e01, e10, e11, e20, e21, e30, e31, e40, e41, e50, e51, e60, e61, e71, e70⟩ := idx_facts t
  funext j
  obtain ⟨y, u, rfl⟩ : ∃ (y : Fin 5000) (u : Fin 1), j = ix2 y u := ⟨j 0, j 1, eq_ix2 j⟩
  show k0_pay1 (F := Ideal) (iblk m c 0 t) (iblk m c 1 t) (iblk m c 2 t) (iblk m c 3 t) (iblk m c 4 t) (iblk m c 5 t) (iblk m c 6 t) (ix2 y u)
    = rowOf (V m c main_v65) (V m c main_v66) (V m c main_v67) (V m c main_arg8) (V m c main_v68) (V m c main_arg10) (V m c main_v69) ((((cfg0.win 7).blk t).view.emb (ix2 y u)) 0)
  refine (Body.pay_at (iblk m c 0 t) (iblk m c 1 t) (iblk m c 2 t) (iblk m c 3 t) (iblk m c 4 t) (iblk m c 5 t) (iblk m c 6 t) y u).trans ?_
  unfold rowOf
  -- each block read is the array read at the block's place: the feature block at the result block's rows, the
  -- parameter blocks at the same index
  have h0 : ∀ k : Fin 4, iblk m c 0 t (ix2 y k)
      = V m c main_v65 (ix2 (n0 := 500000) (n1 := 4) ((((cfg0.win 7).blk t).view.emb (ix2 y u)) 0) k) := fun k => by
    show V m c main_v65 (((cfg0.win 0).blk t).view.emb (ix2 y k)) = _
    refine congrArg (V m c main_v65) (funext fun a => Fin.ext ?_)
    match a with
    | ⟨0, _⟩ => show win0_0.index t (0 : Fin 2) * 5000 + 1 * y.val = win0_7.index t (0 : Fin 2) * 5000 + 1 * y.val; omega
    | ⟨1, _⟩ => show win0_0.index t (1 : Fin 2) * 4 + 1 * k.val = k.val; omega
  have h1 : ∀ (k : Fin 4) (l : Fin 128), iblk m c 1 t (ix2 k l) = V m c main_v66 (ix2 k l) := fun k l => by
    show V m c main_v66 (((cfg0.win 1).blk t).view.emb (ix2 k l)) = _
    refine congrArg (V m c main_v66) (funext fun a => Fin.ext ?_)
    match a with
    | ⟨0, _⟩ => show win0_1.index t (0 : Fin 2) * 4 + 1 * k.val = k.val; omega
    | ⟨1, _⟩ => show win0_1.index t (1 : Fin 2) * 128 + 1 * l.val = l.val; omega
  have h2 : ∀ (z : Fin 1) (l : Fin 128), iblk m c 2 t (ix2 z l) = V m c main_v67 (ix2 z l) := fun z l => by
    show V m c main_v67 (((cfg0.win 2).blk t).view.emb (ix2 z l)) = _
    refine congrArg (V m c main_v67) (funext fun a => Fin.ext ?_)
    match a with
    | ⟨0, _⟩ => show win0_2.index t (0 : Fin 2) * 1 + 1 * z.val = z.val; omega
    | ⟨1, _⟩ => show win0_2.index t (1 : Fin 2) * 128 + 1 * l.val = l.val; omega
  have h3 : ∀ (l j : Fin 128), iblk m c 3 t (ix2 l j) = V m c main_arg8 (ix2 l j) := fun l j => by
    show V m c main_arg8 (((cfg0.win 3).blk t).view.emb (ix2 l j)) = _
    refine congrArg (V m c main_arg8) (funext fun a => Fin.ext ?_)
    match a with
    | ⟨0, _⟩ => show win0_3.index t (0 : Fin 2) * 128 + 1 * l.val = l.val; omega
    | ⟨1, _⟩ => show win0_3.index t (1 : Fin 2) * 128 + 1 * j.val = j.val; omega
  have h4 : ∀ (z : Fin 1) (l : Fin 128), iblk m c 4 t (ix2 z l) = V m c main_v68 (ix2 z l) := fun z l => by
    show V m c main_v68 (((cfg0.win 4).blk t).view.emb (ix2 z l)) = _
    refine congrArg (V m c main_v68) (funext fun a => Fin.ext ?_)
    match a with
    | ⟨0, _⟩ => show win0_4.index t (0 : Fin 2) * 1 + 1 * z.val = z.val; omega
    | ⟨1, _⟩ => show win0_4.index t (1 : Fin 2) * 128 + 1 * l.val = l.val; omega
  have h5 : ∀ (j : Fin 128) (z : Fin 1), iblk m c 5 t (ix2 j z) = V m c main_arg10 (ix2 j z) := fun j z => by
    show V m c main_arg10 (((cfg0.win 5).blk t).view.emb (ix2 j z)) = _
    refine congrArg (V m c main_arg10) (funext fun a => Fin.ext ?_)
    match a with
    | ⟨0, _⟩ => show win0_5.index t (0 : Fin 2) * 128 + 1 * j.val = j.val; omega
    | ⟨1, _⟩ => show win0_5.index t (1 : Fin 2) * 1 + 1 * z.val = z.val; omega
  have h6 : ∀ (z z' : Fin 1), iblk m c 6 t (ix2 z z') = V m c main_v69 (ix2 z z') := fun z z' => by
    show V m c main_v69 (((cfg0.win 6).blk t).view.emb (ix2 z z')) = _
    refine congrArg (V m c main_v69) (funext fun a => Fin.ext ?_)
    match a with
    | ⟨0, _⟩ => show win0_6.index t (0 : Fin 2) * 1 + 1 * z.val = z.val; omega
    | ⟨1, _⟩ => show win0_6.index t (1 : Fin 2) * 1 + 1 * z'.val = z'.val; omega
  simp only [h0, h1, h2, h3, h4, h5, h6]

/-- An index of the result is in point `t`'s block iff each coordinate is in the block's range on its axis. -/
theorem mem_blk7 (t : Fin cfg0.N) (i : S500000x1.Idx) :
    i ∈ ((cfg0.win 7).blk t).view.set ↔ ∀ a : Fin 2, win0_7.index t a * S5000x1.size a ≤ (i a).val ∧ (i a).val < win0_7.index t a * S5000x1.size a + S5000x1.size a := by
  show i ∈ ((View.whole main_v70).slice (win0_7.rect t)).set ↔ _
  rw [View.set_slice_whole, Rect.mem_set_unit]
  exact Iff.rfl

/-- Every index of the result is in the block of the point that writes its row: row `r` is written at point `r / 5000`. -/
theorem covered (i : S500000x1.Idx) : ∃ t : Fin cfg0.N, (cfg0.win 7).flush t = true ∧ i ∈ ((cfg0.win 7).blk t).view.set := by
  have hi0 : (i 0).val < 500000 := (i 0).isLt
  have hi1 : (i 1).val < 1 := (i 1).isLt
  obtain ⟨t, ht⟩ := idx_onto ⟨(i 0).val / 5000, by omega⟩
  have q0 : win0_7.index t (0 : Fin 2) = (i 0).val / 5000 := congrFun ht 0
  have q1 : win0_7.index t (1 : Fin 2) = 0 := congrFun ht 1
  refine ⟨t, flush0_7 t, ?_⟩
  rw [mem_blk7]
  intro a
  match a with
  | ⟨0, _⟩ => show win0_7.index t (0 : Fin 2) * 5000 ≤ (i 0).val ∧ (i 0).val < win0_7.index t (0 : Fin 2) * 5000 + 5000; omega
  | ⟨1, _⟩ => show win0_7.index t (1 : Fin 2) * 1 ≤ (i 1).val ∧ (i 1).val < win0_7.index t (1 : Fin 2) * 1 + 1; omega

/-- The result array after the run: `rowsOf` of the arrays the region finds. -/
theorem final7 (c : Dev nD) : (dats m 0 c).arrAt 7 cfg0.N = rowsOf (V m c main_v65) (V m c main_v66) (V m c main_v67) (V m c main_arg8) (V m c main_v68) (V m c main_arg10) (V m c main_v69) :=
  (dats m 0 c).arrAt_eq_of_cover 7 _ (fun t _ => flushed7_eq m c t) covered

/-- The kernel's run, read: every weakly fair execution terminates with the result array at `rowsOf` of the arrays the
    region finds and the argument arrays unchanged. -/
theorem run : θ_run defs (onTc (τ := τ) (main (F := Ideal))) ⟨m, fun _ => 0, ρ⟩ fun r => ∀ c : Dev nD,
      r.2.mem ((c.tc : Thread nD τ).loc main_v70) = rowsOf (V m c main_v65) (V m c main_v66) (V m c main_v67) (V m c main_arg8) (V m c main_v68) (V m c main_arg10) (V m c main_v69)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => ⟨((h c).1 7).trans (final7 m c), kept_args m (dats m) (A_eq m) r h c⟩)
    (run_main m ρ)

end Cert.KernelIdeal.Arrays

end
-- ==== Proof.KernelHost.lean ====
/-
  The arrays the kernel's region finds, as functions of the argument arrays.

  The host lines before the region compute, from the node features `x`, the edge list and the edge weights: the degree
  normalisation, then three rounds of propagation (gather the current features along the edges' sources, scale by the
  edge norm, scatter-add at the edges' targets). These are line for line the operations the reference runs, so each
  propagated column is the reference's own stage of the same arguments: the two composed terms are the same term. The
  last five lines stack the four columns `[x, h₁, h₂, h₃]` side by side, stack the four hop weight rows one under the
  other, and reshape the three biases to rows. The lines are split there: `W` is what the buffers hold before the
  stacking, and the last five lines are read one by one over `W`.
-/
import proofs.«178473_j4784593568488_1_alg».proof.Proof.KernelIdealFrame
import proofs.«178473_j4784593568488_1_alg».proof.Proof.Gen.ReferenceIdeal.Read

set_option maxRecDepth 16384

noncomputable section

namespace Cert.KernelIdeal.HostLines

open Cert.KernelIdeal Cert.KernelIdeal.Gen Cert.KernelIdeal.Hand Idealize.ShloMosaic Idealize.ShloMosaic.TcCoe Idealize.SL.Sem
open Idealize.ShloMosaic.StableHlo

variable {F : FTy → Type} [FloatOps F]
variable (m : (ℓ : Loc nD τ sig) → Buf (Elt F) ℓ)

set_option maxHeartbeats 40000000 in
/-- The third stretch's 65 lines before the stacking, in order. -/
abbrev pre2 : List (HloOp τ sig (Elt F)) :=
  ( StableHlo.nullary main_c (constantI S_ 32 0#32)
  :: StableHlo.unary main_c main_v13 (broadcastInDim S16000000 ![] bcast_S_S16000000 : (⟨S_, .i32⟩ : BufTy).Contents (Elt F) → (⟨S16000000, .i32⟩ : BufTy).Contents (Elt F))
  :: StableHlo.binary main_v1 main_v13 main_v14 (cmpi .slt : (⟨S16000000, .i32⟩ : BufTy).Contents (Elt F) → (⟨S16000000, .i32⟩ : BufTy).Contents (Elt F) → (⟨S16000000, .i1⟩ : BufTy).Contents (Elt F))
  :: StableHlo.nullary main_c_3 (constantI S_ 32 500000#32)
  :: StableHlo.unary main_c_3 main_v15 (broadcastInDim S16000000 ![] bcast_S_S16000000 : (⟨S_, .i32⟩ : BufTy).Contents (Elt F) → (⟨S16000000, .i32⟩ : BufTy).Contents (Elt F))
  :: StableHlo.binary main_v1 main_v15 main_v16 (addi : (⟨S16000000, .i32⟩ : BufTy).Contents (Elt F) → (⟨S16000000, .i32⟩ : BufTy).Contents (Elt F) → (⟨S16000000, .i32⟩ : BufTy).Contents (Elt F))
  :: StableHlo.ternary main_v14 main_v16 main_v1 main_v17 (select : (⟨S16000000, .i1⟩ : BufTy).Contents (Elt F) → (⟨S16000000, .i32⟩ : BufTy).Contents (Elt F) → (⟨S16000000, .i32⟩ : BufTy).Contents (Elt F) → (⟨S16000000, .i32⟩ : BufTy).Contents (Elt F))
  :: StableHlo.unary main_v17 main_v18 (broadcastInDim S16000000x1 ![0] bcast_S16000000_S16000000x1_0 : (⟨S16000000, .i32⟩ : BufTy).Contents (Elt F) → (⟨S16000000x1, .i32⟩ : BufTy).Contents (Elt F))
  :: StableHlo.binary main_v12 main_v18 main_v19 ((fun x i => Host.gather gather_S500000_S16000000x1_S16000000_n_0_n_n_0_1_1 x i) : (⟨S500000, .f32⟩ : BufTy).Contents (Elt F) → (⟨S16000000x1, .i32⟩ : BufTy).Contents (Elt F) → (⟨S16000000, .f32⟩ : BufTy).Contents (Elt F))
  :: StableHlo.binary main_v19 main_arg2 main_v20 (mulf : (⟨S16000000, .f32⟩ : BufTy).Contents (Elt F) → (⟨S16000000, .f32⟩ : BufTy).Contents (Elt F) → (⟨S16000000, .f32⟩ : BufTy).Contents (Elt F))
  :: StableHlo.nullary main_c_4 (constantI S_ 32 0#32)
  :: StableHlo.unary main_c_4 main_v21 (broadcastInDim S16000000 ![] bcast_S_S16000000 : (⟨S_, .i32⟩ : BufTy).Contents (Elt F) → (⟨S16000000, .i32⟩ : BufTy).Contents (Elt F))
  :: StableHlo.binary main_v3 main_v21 main_v22 (cmpi .slt : (⟨S16000000, .i32⟩ : BufTy).Contents (Elt F) → (⟨S16000000, .i32⟩ : BufTy).Contents (Elt F) → (⟨S16000000, .i1⟩ : BufTy).Contents (Elt F))
  :: StableHlo.nullary main_c_5 (constantI S_ 32 500000#32)
  :: StableHlo.unary main_c_5 main_v23 (broadcastInDim S16000000 ![] bcast_S_S16000000 : (⟨S_, .i32⟩ : BufTy).Contents (Elt F) → (⟨S16000000, .i32⟩ : BufTy).Contents (Elt F))
  :: StableHlo.binary main_v3 main_v23 main_v24 (addi : (⟨S16000000, .i32⟩ : BufTy).Contents (Elt F) → (⟨S16000000, .i32⟩ : BufTy).Contents (Elt F) → (⟨S16000000, .i32⟩ : BufTy).Contents (Elt F))
  :: StableHlo.ternary main_v22 main_v24 main_v3 main_v25 (select : (⟨S16000000, .i1⟩ : BufTy).Contents (Elt F) → (⟨S16000000, .i32⟩ : BufTy).Contents (Elt F) → (⟨S16000000, .i32⟩ : BufTy).Contents (Elt F) → (⟨S16000000, .i32⟩ : BufTy).Contents (Elt F))
  :: StableHlo.unary main_v25 main_v26 (broadcastInDim S16000000x1 ![0] bcast_S16000000_S16000000x1_0 : (⟨S16000000, .i32⟩ : BufTy).Contents (Elt F) → (⟨S16000000x1, .i32⟩ : BufTy).Contents (Elt F))
  :: StableHlo.binary main_v12 main_v26 main_v27 ((fun x i => Host.gather gather_S500000_S16000000x1_S16000000_n_0_n_n_0_1_1 x i) : (⟨S500000, .f32⟩ : BufTy).Contents (Elt F) → (⟨S16000000x1, .i32⟩ : BufTy).Contents (Elt F) → (⟨S16000000, .f32⟩ : BufTy).Contents (Elt F))
  :: StableHlo.binary main_v20 main_v27 main_v28 (mulf : (⟨S16000000, .f32⟩ : BufTy).Contents (Elt F) → (⟨S16000000, .f32⟩ : BufTy).Contents (Elt F) → (⟨S16000000, .f32⟩ : BufTy).Contents (Elt F))
  :: StableHlo.unary main_v28 main_v29 (broadcastInDim S16000000x1 ![0] bcast_S16000000_S16000000x1_0 : (⟨S16000000, .f32⟩ : BufTy).Contents (Elt F) → (⟨S16000000x1, .f32⟩ : BufTy).Contents (Elt F))
  :: StableHlo.nullary main_c_6 (constantI S_ 32 0#32)
  :: StableHlo.unary main_c_6 main_v30 (broadcastInDim S16000000 ![] bcast_S_S16000000 : (⟨S_, .i32⟩ : BufTy).Contents (Elt F) → (⟨S16000000, .i32⟩ : BufTy).Contents (Elt F))
  :: StableHlo.binary main_v1 main_v30 main_v31 (cmpi .slt : (⟨S16000000, .i32⟩ : BufTy).Contents (Elt F) → (⟨S16000000, .i32⟩ : BufTy).Contents (Elt F) → (⟨S16000000, .i1⟩ : BufTy).Contents (Elt F))
  :: StableHlo.nullary main_c_7 (constantI S_ 32 500000#32)
  :: StableHlo.unary main_c_7 main_v32 (broadcastInDim S16000000 ![] bcast_S_S16000000 : (⟨S_, .i32⟩ : BufTy).Contents (Elt F) → (⟨S16000000, .i32⟩ : BufTy).Contents (Elt F))
  :: StableHlo.binary main_v1 main_v32 main_v33 (addi : (⟨S16000000, .i32⟩ : BufTy).Contents (Elt F) → (⟨S16000000, .i32⟩ : BufTy).Contents (Elt F) → (⟨S16000000, .i32⟩ : BufTy).Contents (Elt F))
  :: StableHlo.ternary main_v31 main_v33 main_v1 main_v34 (select : (⟨S16000000, .i1⟩ : BufTy).Contents (Elt F) → (⟨S16000000, .i32⟩ : BufTy).Contents (Elt F) → (⟨S16000000, .i32⟩ : BufTy).Contents (Elt F) → (⟨S16000000, .i32⟩ : BufTy).Contents (Elt F))
  :: StableHlo.unary main_v34 main_v35 (broadcastInDim S16000000x1 ![0] bcast_S16000000_S16000000x1_0 : (⟨S16000000, .i32⟩ : BufTy).Contents (Elt F) → (⟨S16000000x1, .i32⟩ : BufTy).Contents (Elt F))
  :: StableHlo.binary main_arg0 main_v35 main_v36 ((fun x i => Host.gather gather_S500000x1_S16000000x1_S16000000x1_1_0_n_n_0_1_11 x i) : (⟨S500000x1, .f32⟩ : BufTy).Contents (Elt F) → (⟨S16000000x1, .i32⟩ : BufTy).Contents (Elt F) → (⟨S16000000x1, .f32⟩ : BufTy).Contents (Elt F))
  :: StableHlo.binary main_v29 main_v36 main_v37 (mulf : (⟨S16000000x1, .f32⟩ : BufTy).Contents (Elt F) → (⟨S16000000x1, .f32⟩ : BufTy).Contents (Elt F) → (⟨S16000000x1, .f32⟩ : BufTy).Contents (Elt F))
  :: StableHlo.nullary main_cst_8 (constant S_ .f32 0x00000000#32)
  :: StableHlo.unary main_cst_8 main_v38 (broadcastInDim S500000x1 ![] bcast_S_S500000x1 : (⟨S_, .f32⟩ : BufTy).Contents (Elt F) → (⟨S500000x1, .f32⟩ : BufTy).Contents (Elt F))
  :: StableHlo.unary main_v3 main_v39 (broadcastInDim S16000000x1 ![0] bcast_S16000000_S16000000x1_0 : (⟨S16000000, .i32⟩ : BufTy).Contents (Elt F) → (⟨S16000000x1, .i32⟩ : BufTy).Contents (Elt F))
  :: StableHlo.ternary main_v38 main_v39 main_v37 main_v40 ((fun x i u => Host.scatterAdd scatter_S500000x1_S16000000x1_S16000000x1_1_0_0_1 x i u) : (⟨S500000x1, .f32⟩ : BufTy).Contents (Elt F) → (⟨S16000000x1, .i32⟩ : BufTy).Contents (Elt F) → (⟨S16000000x1, .f32⟩ : BufTy).Contents (Elt F) → (⟨S500000x1, .f32⟩ : BufTy).Contents (Elt F))
  :: StableHlo.unary main_v28 main_v41 (broadcastInDim S16000000x1 ![0] bcast_S16000000_S16000000x1_0 : (⟨S16000000, .f32⟩ : BufTy).Contents (Elt F) → (⟨S16000000x1, .f32⟩ : BufTy).Contents (Elt F))
  :: StableHlo.nullary main_c_9 (constantI S_ 32 0#32)
  :: StableHlo.unary main_c_9 main_v42 (broadcastInDim S16000000 ![] bcast_S_S16000000 : (⟨S_, .i32⟩ : BufTy).Contents (Elt F) → (⟨S16000000, .i32⟩ : BufTy).Contents (Elt F))
  :: StableHlo.binary main_v1 main_v42 main_v43 (cmpi .slt : (⟨S16000000, .i32⟩ : BufTy).Contents (Elt F) → (⟨S16000000, .i32⟩ : BufTy).Contents (Elt F) → (⟨S16000000, .i1⟩ : BufTy).Contents (Elt F))
  :: StableHlo.nullary main_c_10 (constantI S_ 32 500000#32)
  :: StableHlo.unary main_c_10 main_v44 (broadcastInDim S16000000 ![] bcast_S_S16000000 : (⟨S_, .i32⟩ : BufTy).Contents (Elt F) → (⟨S16000000, .i32⟩ : BufTy).Contents (Elt F))
  :: StableHlo.binary main_v1 main_v44 main_v45 (addi : (⟨S16000000, .i32⟩ : BufTy).Contents (Elt F) → (⟨S16000000, .i32⟩ : BufTy).Contents (Elt F) → (⟨S16000000, .i32⟩ : BufTy).Contents (Elt F))
  :: StableHlo.ternary main_v43 main_v45 main_v1 main_v46 (select : (⟨S16000000, .i1⟩ : BufTy).Contents (Elt F) → (⟨S16000000, .i32⟩ : BufTy).Contents (Elt F) → (⟨S16000000, .i32⟩ : BufTy).Contents (Elt F) → (⟨S16000000, .i32⟩ : BufTy).Contents (Elt F))
  :: StableHlo.unary main_v46 main_v47 (broadcastInDim S16000000x1 ![0] bcast_S16000000_S16000000x1_0 : (⟨S16000000, .i32⟩ : BufTy).Contents (Elt F) → (⟨S16000000x1, .i32⟩ : BufTy).Contents (Elt F))
  :: StableHlo.binary main_v40 main_v47 main_v48 ((fun x i => Host.gather gather_S500000x1_S16000000x1_S16000000x1_1_0_n_n_0_1_11 x i) : (⟨S500000x1, .f32⟩ : BufTy).Contents (Elt F) → (⟨S16000000x1, .i32⟩ : BufTy).Contents (Elt F) → (⟨S16000000x1, .f32⟩ : BufTy).Contents (Elt F))
  :: StableHlo.binary main_v41 main_v48 main_v49 (mulf : (⟨S16000000x1, .f32⟩ : BufTy).Contents (Elt F) → (⟨S16000000x1, .f32⟩ : BufTy).Contents (Elt F) → (⟨S16000000x1, .f32⟩ : BufTy).Contents (Elt F))
  :: StableHlo.nullary main_cst_11 (constant S_ .f32 0x00000000#32)
  :: StableHlo.unary main_cst_11 main_v50 (broadcastInDim S500000x1 ![] bcast_S_S500000x1 : (⟨S_, .f32⟩ : BufTy).Contents (Elt F) → (⟨S500000x1, .f32⟩ : BufTy).Contents (Elt F))
  :: StableHlo.unary main_v3 main_v51 (broadcastInDim S16000000x1 ![0] bcast_S16000000_S16000000x1_0 : (⟨S16000000, .i32⟩ : BufTy).Contents (Elt F) → (⟨S16000000x1, .i32⟩ : BufTy).Contents (Elt F))
  :: StableHlo.ternary main_v50 main_v51 main_v49 main_v52 ((fun x i u => Host.scatterAdd scatter_S500000x1_S16000000x1_S16000000x1_1_0_0_1 x i u) : (⟨S500000x1, .f32⟩ : BufTy).Contents (Elt F) → (⟨S16000000x1, .i32⟩ : BufTy).Contents (Elt F) → (⟨S16000000x1, .f32⟩ : BufTy).Contents (Elt F) → (⟨S500000x1, .f32⟩ : BufTy).Contents (Elt F))
  :: StableHlo.unary main_v28 main_v53 (broadcastInDim S16000000x1 ![0] bcast_S16000000_S16000000x1_0 : (⟨S16000000, .f32⟩ : BufTy).Contents (Elt F) → (⟨S16000000x1, .f32⟩ : BufTy).Contents (Elt F))
  :: StableHlo.nullary main_c_12 (constantI S_ 32 0#32)
  :: StableHlo.unary main_c_12 main_v54 (broadcastInDim S16000000 ![] bcast_S_S16000000 : (⟨S_, .i32⟩ : BufTy).Contents (Elt F) → (⟨S16000000, .i32⟩ : BufTy).Contents (Elt F))
  :: StableHlo.binary main_v1 main_v54 main_v55 (cmpi .slt : (⟨S16000000, .i32⟩ : BufTy).Contents (Elt F) → (⟨S16000000, .i32⟩ : BufTy).Contents (Elt F) → (⟨S16000000, .i1⟩ : BufTy).Contents (Elt F))
  :: StableHlo.nullary main_c_13 (constantI S_ 32 500000#32)
  :: StableHlo.unary main_c_13 main_v56 (broadcastInDim S16000000 ![] bcast_S_S16000000 : (⟨S_, .i32⟩ : BufTy).Contents (Elt F) → (⟨S16000000, .i32⟩ : BufTy).Contents (Elt F))
  :: StableHlo.binary main_v1 main_v56 main_v57 (addi : (⟨S16000000, .i32⟩ : BufTy).Contents (Elt F) → (⟨S16000000, .i32⟩ : BufTy).Contents (Elt F) → (⟨S16000000, .i32⟩ : BufTy).Contents (Elt F))
  :: StableHlo.ternary main_v55 main_v57 main_v1 main_v58 (select : (⟨S16000000, .i1⟩ : BufTy).Contents (Elt F) → (⟨S16000000, .i32⟩ : BufTy).Contents (Elt F) → (⟨S16000000, .i32⟩ : BufTy).Contents (Elt F) → (⟨S16000000, .i32⟩ : BufTy).Contents (Elt F))
  :: StableHlo.unary main_v58 main_v59 (broadcastInDim S16000000x1 ![0] bcast_S16000000_S16000000x1_0 : (⟨S16000000, .i32⟩ : BufTy).Contents (Elt F) → (⟨S16000000x1, .i32⟩ : BufTy).Contents (Elt F))
  :: StableHlo.binary main_v52 main_v59 main_v60 ((fun x i => Host.gather gather_S500000x1_S16000000x1_S16000000x1_1_0_n_n_0_1_11 x i) : (⟨S500000x1, .f32⟩ : BufTy).Contents (Elt F) → (⟨S16000000x1, .i32⟩ : BufTy).Contents (Elt F) → (⟨S16000000x1, .f32⟩ : BufTy).Contents (Elt F))
  :: StableHlo.binary main_v53 main_v60 main_v61 (mulf : (⟨S16000000x1, .f32⟩ : BufTy).Contents (Elt F) → (⟨S16000000x1, .f32⟩ : BufTy).Contents (Elt F) → (⟨S16000000x1, .f32⟩ : BufTy).Contents (Elt F))
  :: StableHlo.nullary main_cst_14 (constant S_ .f32 0x00000000#32)
  :: StableHlo.unary main_cst_14 main_v62 (broadcastInDim S500000x1 ![] bcast_S_S500000x1 : (⟨S_, .f32⟩ : BufTy).Contents (Elt F) → (⟨S500000x1, .f32⟩ : BufTy).Contents (Elt F))
  :: StableHlo.unary main_v3 main_v63 (broadcastInDim S16000000x1 ![0] bcast_S16000000_S16000000x1_0 : (⟨S16000000, .i32⟩ : BufTy).Contents (Elt F) → (⟨S16000000x1, .i32⟩ : BufTy).Contents (Elt F))
  :: StableHlo.ternary main_v62 main_v63 main_v61 main_v64 ((fun x i u => Host.scatterAdd scatter_S500000x1_S16000000x1_S16000000x1_1_0_0_1 x i u) : (⟨S500000x1, .f32⟩ : BufTy).Contents (Elt F) → (⟨S16000000x1, .i32⟩ : BufTy).Contents (Elt F) → (⟨S16000000x1, .f32⟩ : BufTy).Contents (Elt F) → (⟨S500000x1, .f32⟩ : BufTy).Contents (Elt F))
  :: [] )

/-- The last five lines: the two stackings and the three reshapes. -/
abbrev tail5 : List (HloOp τ sig (Elt F)) :=
  [ StableHlo.nary ![main_arg0, main_v40, main_v52, main_v64] main_v65 (fun u => concatenate S500000x4 1 [⟨S500000x1, u 0⟩, ⟨S500000x1, u 1⟩, ⟨S500000x1, u 2⟩, ⟨S500000x1, u 3⟩] concatenates_S500000x1_S500000x1_S500000x1_S500000x1_S500000x4_d1),
    StableHlo.nary ![main_arg3, main_arg4, main_arg5, main_arg6] main_v66 (fun u => concatenate S4x128 0 [⟨S1x128, u 0⟩, ⟨S1x128, u 1⟩, ⟨S1x128, u 2⟩, ⟨S1x128, u 3⟩] concatenates_S1x128_S1x128_S1x128_S1x128_S4x128_d0),
    StableHlo.reshape main_arg7 main_v67 rfl shapeCasts_S128_S1x128,
    StableHlo.reshape main_arg9 main_v68 rfl shapeCasts_S128_S1x128,
    StableHlo.reshape main_arg11 main_v69 rfl shapeCasts_S1_S1x1 ]

set_option maxHeartbeats 40000000 in
/-- The third stretch is those 65 lines, then those five. -/
theorem split2 : (hostOps0_2 : List (HloOp τ sig (Elt F))) = pre2 ++ tail5 := rfl

/-- What the device's buffers hold after every host line before the stacking. -/
def W (c : Dev nD) : Valuation τ sig (Elt F) :=
  StableHlo.after (hostOps0 ++ (hostOps0_1 ++ pre2)) (fun b => m (c, b))

/-- What the region finds is the last five lines run over `W`. -/
theorem V_eq (c : Dev nD) (b : Ref sig .tc) : V m c b = StableHlo.after tail5 (W m c) b := by
  show StableHlo.after (List.flatten [hostOps0, hostOps0_1, hostOps0_2]) (fun b => m (c, b)) b = _
  rw [split2]
  have e : List.flatten [(hostOps0 : List (HloOp τ sig (Elt F))), hostOps0_1, pre2 ++ tail5] = (hostOps0 ++ (hostOps0_1 ++ pre2)) ++ tail5 := by
    simp only [List.flatten_cons, List.flatten_nil, List.append_nil, List.append_assoc]
  rw [e, StableHlo.after_append]
  rfl

/-- The stacked features: the four columns before the stacking, side by side. -/
theorem V_v65 (c : Dev nD) : V m c main_v65 = concatenate S500000x4 1
      [⟨S500000x1, W m c main_arg0⟩, ⟨S500000x1, W m c main_v40⟩, ⟨S500000x1, W m c main_v52⟩, ⟨S500000x1, W m c main_v64⟩]
      concatenates_S500000x1_S500000x1_S500000x1_S500000x1_S500000x4_d1 := by
  rw [V_eq]
  simp only [tail5, after_cons, after_nil]
  (rw [reshape_result_ne]; rotate_left; decide)
  (rw [reshape_result_ne]; rotate_left; decide)
  (rw [reshape_result_ne]; rotate_left; decide)
  (rw [nary_result_ne]; rotate_left; decide)
  rw [nary4_result]
  rfl

/-- The stacked hop weights: the four weight rows before the stacking, one under the other. -/
theorem V_v66 (c : Dev nD) : V m c main_v66 = concatenate S4x128 0
      [⟨S1x128, W m c main_arg3⟩, ⟨S1x128, W m c main_arg4⟩, ⟨S1x128, W m c main_arg5⟩, ⟨S1x128, W m c main_arg6⟩]
      concatenates_S1x128_S1x128_S1x128_S1x128_S4x128_d0 := by
  rw [V_eq]
  simp only [tail5, after_cons, after_nil]
  (rw [reshape_result_ne]; rotate_left; decide)
  (rw [reshape_result_ne]; rotate_left; decide)
  (rw [reshape_result_ne]; rotate_left; decide)
  rw [nary4_result]
  (rw [nary_result_ne]; rotate_left; decide)
  (rw [nary_result_ne]; rotate_left; decide)
  (rw [nary_result_ne]; rotate_left; decide)
  (rw [nary_result_ne]; rotate_left; decide)
  rfl

/-- The first bias as a row. -/
theorem V_v67 (c : Dev nD) : V m c main_v67 = shapeCast S1x128 (W m c main_arg7) shapeCasts_S128_S1x128 := by
  rw [V_eq]
  simp only [tail5, after_cons, after_nil]
  (rw [reshape_result_ne]; rotate_left; decide)
  (rw [reshape_result_ne]; rotate_left; decide)
  rw [reshape_result]
  (rw [nary_result_ne]; rotate_left; decide)
  (rw [nary_result_ne]; rotate_left; decide)
  rfl

/-- The second bias as a row. -/
theorem V_v68 (c : Dev nD) : V m c main_v68 = shapeCast S1x128 (W m c main_arg9) shapeCasts_S128_S1x128 := by
  rw [V_eq]
  simp only [tail5, after_cons, after_nil]
  (rw [reshape_result_ne]; rotate_left; decide)
  rw [reshape_result]
  (rw [reshape_result_ne]; rotate_left; decide)
  (rw [nary_result_ne]; rotate_left; decide)
  (rw [nary_result_ne]; rotate_left; decide)
  rfl

/-- The last bias as a one-entry matrix. -/
theorem V_v69 (c : Dev nD) : V m c main_v69 = shapeCast S1x1 (W m c main_arg11) shapeCasts_S1_S1x1 := by
  rw [V_eq]
  simp only [tail5, after_cons, after_nil]
  rw [reshape_result]
  (rw [reshape_result_ne]; rotate_left; decide)
  (rw [reshape_result_ne]; rotate_left; decide)
  (rw [nary_result_ne]; rotate_left; decide)
  (rw [nary_result_ne]; rotate_left; decide)
  rfl

set_option maxHeartbeats 4000000 in
/-- No host line before the stacking writes argument 0. -/
theorem W_arg0 (c : Dev nD) : W m c main_arg0 = m ((c : Thread nD τ).loc main_arg0) :=
  StableHlo.after_of_forall_not_mem (b := Proc.devRef .tc main_arg0) _ _ (List.forall_iff_forall_mem.mp (by
    simp only [hostOps0, hostOps0_1, pre2, List.cons_append, List.nil_append, List.Forall, StableHlo.nullary_writes, StableHlo.unary_writes,
      StableHlo.binary_writes, StableHlo.ternary_writes, StableHlo.reshape_writes, Finset.mem_singleton]
    repeat' apply And.intro
    all_goals exact StableHlo.devRef_ne_of_ne (by decide)))
set_option maxHeartbeats 4000000 in
/-- No host line before the stacking writes argument 3. -/
theorem W_arg3 (c : Dev nD) : W m c main_arg3 = m ((c : Thread nD τ).loc main_arg3) :=
  StableHlo.after_of_forall_not_mem (b := Proc.devRef .tc main_arg3) _ _ (List.forall_iff_forall_mem.mp (by
    simp only [hostOps0, hostOps0_1, pre2, List.cons_append, List.nil_append, List.Forall, StableHlo.nullary_writes, StableHlo.unary_writes,
      StableHlo.binary_writes, StableHlo.ternary_writes, StableHlo.reshape_writes, Finset.mem_singleton]
    repeat' apply And.intro
    all_goals exact StableHlo.devRef_ne_of_ne (by decide)))
set_option maxHeartbeats 4000000 in
/-- No host line before the stacking writes argument 4. -/
theorem W_arg4 (c : Dev nD) : W m c main_arg4 = m ((c : Thread nD τ).loc main_arg4) :=
  StableHlo.after_of_forall_not_mem (b := Proc.devRef .tc main_arg4) _ _ (List.forall_iff_forall_mem.mp (by
    simp only [hostOps0, hostOps0_1, pre2, List.cons_append, List.nil_append, List.Forall, StableHlo.nullary_writes, StableHlo.unary_writes,
      StableHlo.binary_writes, StableHlo.ternary_writes, StableHlo.reshape_writes, Finset.mem_singleton]
    repeat' apply And.intro
    all_goals exact StableHlo.devRef_ne_of_ne (by decide)))
set_option maxHeartbeats 4000000 in
/-- No host line before the stacking writes argument 5. -/
theorem W_arg5 (c : Dev nD) : W m c main_arg5 = m ((c : Thread nD τ).loc main_arg5) :=
  StableHlo.after_of_forall_not_mem (b := Proc.devRef .tc main_arg5) _ _ (List.forall_iff_forall_mem.mp (by
    simp only [hostOps0, hostOps0_1, pre2, List.cons_append, List.nil_append, List.Forall, StableHlo.nullary_writes, StableHlo.unary_writes,
      StableHlo.binary_writes, StableHlo.ternary_writes, StableHlo.reshape_writes, Finset.mem_singleton]
    repeat' apply And.intro
    all_goals exact StableHlo.devRef_ne_of_ne (by decide)))
set_option maxHeartbeats 4000000 in
/-- No host line before the stacking writes argument 6. -/
theorem W_arg6 (c : Dev nD) : W m c main_arg6 = m ((c : Thread nD τ).loc main_arg6) :=
  StableHlo.after_of_forall_not_mem (b := Proc.devRef .tc main_arg6) _ _ (List.forall_iff_forall_mem.mp (by
    simp only [hostOps0, hostOps0_1, pre2, List.cons_append, List.nil_append, List.Forall, StableHlo.nullary_writes, StableHlo.unary_writes,
      StableHlo.binary_writes, StableHlo.ternary_writes, StableHlo.reshape_writes, Finset.mem_singleton]
    repeat' apply And.intro
    all_goals exact StableHlo.devRef_ne_of_ne (by decide)))
set_option maxHeartbeats 4000000 in
/-- No host line before the stacking writes argument 7. -/
theorem W_arg7 (c : Dev nD) : W m c main_arg7 = m ((c : Thread nD τ).loc main_arg7) :=
  StableHlo.after_of_forall_not_mem (b := Proc.devRef .tc main_arg7) _ _ (List.forall_iff_forall_mem.mp (by
    simp only [hostOps0, hostOps0_1, pre2, List.cons_append, List.nil_append, List.Forall, StableHlo.nullary_writes, StableHlo.unary_writes,
      StableHlo.binary_writes, StableHlo.ternary_writes, StableHlo.reshape_writes, Finset.mem_singleton]
    repeat' apply And.intro
    all_goals exact StableHlo.devRef_ne_of_ne (by decide)))
set_option maxHeartbeats 4000000 in
/-- No host line before the stacking writes argument 9. -/
theorem W_arg9 (c : Dev nD) : W m c main_arg9 = m ((c : Thread nD τ).loc main_arg9) :=
  StableHlo.after_of_forall_not_mem (b := Proc.devRef .tc main_arg9) _ _ (List.forall_iff_forall_mem.mp (by
    simp only [hostOps0, hostOps0_1, pre2, List.cons_append, List.nil_append, List.Forall, StableHlo.nullary_writes, StableHlo.unary_writes,
      StableHlo.binary_writes, StableHlo.ternary_writes, StableHlo.reshape_writes, Finset.mem_singleton]
    repeat' apply And.intro
    all_goals exact StableHlo.devRef_ne_of_ne (by decide)))
set_option maxHeartbeats 4000000 in
/-- No host line before the stacking writes argument 11. -/
theorem W_arg11 (c : Dev nD) : W m c main_arg11 = m ((c : Thread nD τ).loc main_arg11) :=
  StableHlo.after_of_forall_not_mem (b := Proc.devRef .tc main_arg11) _ _ (List.forall_iff_forall_mem.mp (by
    simp only [hostOps0, hostOps0_1, pre2, List.cons_append, List.nil_append, List.Forall, StableHlo.nullary_writes, StableHlo.unary_writes,
      StableHlo.binary_writes, StableHlo.ternary_writes, StableHlo.reshape_writes, Finset.mem_singleton]
    repeat' apply And.intro
    all_goals exact StableHlo.devRef_ne_of_ne (by decide)))

end Cert.KernelIdeal.HostLines

end
-- ==== Proof.KernelProp.lean ====
/-
  The propagated feature columns the kernel computes on the host are the reference's.

  Before the stacking the kernel's host lines are, one for one, the reference's first lines. They are read here in five
  stretches, the buffers between two stretches kept by name:
  * up to the degree normaliser: split the edge list into sources and targets; scatter-add the edge weights at the
    targets for the degrees; the inverse square root of the degree where it is positive and zero elsewhere (`WA`);
  * the edge norm: the normaliser gathered at the sources, times the edge weight, times the normaliser gathered at the
    targets (`WB`);
  * three propagation rounds, each: gather the current column at the sources, multiply by the edge norm, scatter-add at
    the targets into zeros (`WC`, `WD`, `WE`).
  In each stretch, composing its lines gives the very term the reference's stage is defined as, over the stages the
  stretch before produced; the typed references of the inlined selection helper only transport along equal types,
  which disappears.
-/
import proofs.«178473_j4784593568488_1_alg».proof.Proof.KernelHost

set_option maxRecDepth 16384

noncomputable section

namespace Cert.KernelIdeal.HostLines

open Cert.KernelIdeal Cert.KernelIdeal.Gen Cert.KernelIdeal.Hand Idealize.ShloMosaic Idealize.ShloMosaic.TcCoe Idealize.SL.Sem
open Idealize.ShloMosaic.StableHlo

variable {F : FTy → Type} [FloatOps F]

/-- The 20 lines of the edge norm. -/
abbrev segB : List (HloOp τ sig (Elt F)) :=
  [ StableHlo.nullary main_c (constantI S_ 32 0#32),
    StableHlo.unary main_c main_v13 (broadcastInDim S16000000 ![] bcast_S_S16000000 : (⟨S_, .i32⟩ : BufTy).Contents (Elt F) → (⟨S16000000, .i32⟩ : BufTy).Contents (Elt F)),
    StableHlo.binary main_v1 main_v13 main_v14 (cmpi .slt : (⟨S16000000, .i32⟩ : BufTy).Contents (Elt F) → (⟨S16000000, .i32⟩ : BufTy).Contents (Elt F) → (⟨S16000000, .i1⟩ : BufTy).Contents (Elt F)),
    StableHlo.nullary main_c_3 (constantI S_ 32 500000#32),
    StableHlo.unary main_c_3 main_v15 (broadcastInDim S16000000 ![] bcast_S_S16000000 : (⟨S_, .i32⟩ : BufTy).Contents (Elt F) → (⟨S16000000, .i32⟩ : BufTy).Contents (Elt F)),
    StableHlo.binary main_v1 main_v15 main_v16 (addi : (⟨S16000000, .i32⟩ : BufTy).Contents (Elt F) → (⟨S16000000, .i32⟩ : BufTy).Contents (Elt F) → (⟨S16000000, .i32⟩ : BufTy).Contents (Elt F)),
    StableHlo.ternary main_v14 main_v16 main_v1 main_v17 (select : (⟨S16000000, .i1⟩ : BufTy).Contents (Elt F) → (⟨S16000000, .i32⟩ : BufTy).Contents (Elt F) → (⟨S16000000, .i32⟩ : BufTy).Contents (Elt F) → (⟨S16000000, .i32⟩ : BufTy).Contents (Elt F)),
    StableHlo.unary main_v17 main_v18 (broadcastInDim S16000000x1 ![0] bcast_S16000000_S16000000x1_0 : (⟨S16000000, .i32⟩ : BufTy).Contents (Elt F) → (⟨S16000000x1, .i32⟩ : BufTy).Contents (Elt F)),
    StableHlo.binary main_v12 main_v18 main_v19 ((fun x i => Host.gather gather_S500000_S16000000x1_S16000000_n_0_n_n_0_1_1 x i) : (⟨S500000, .f32⟩ : BufTy).Contents (Elt F) → (⟨S16000000x1, .i32⟩ : BufTy).Contents (Elt F) → (⟨S16000000, .f32⟩ : BufTy).Contents (Elt F)),
    StableHlo.binary main_v19 main_arg2 main_v20 (mulf : (⟨S16000000, .f32⟩ : BufTy).Contents (Elt F) → (⟨S16000000, .f32⟩ : BufTy).Contents (Elt F) → (⟨S16000000, .f32⟩ : BufTy).Contents (Elt F)),
    StableHlo.nullary main_c_4 (constantI S_ 32 0#32),
    StableHlo.unary main_c_4 main_v21 (broadcastInDim S16000000 ![] bcast_S_S16000000 : (⟨S_, .i32⟩ : BufTy).Contents (Elt F) → (⟨S16000000, .i32⟩ : BufTy).Contents (Elt F)),
    StableHlo.binary main_v3 main_v21 main_v22 (cmpi .slt : (⟨S16000000, .i32⟩ : BufTy).Contents (Elt F) → (⟨S16000000, .i32⟩ : BufTy).Contents (Elt F) → (⟨S16000000, .i1⟩ : BufTy).Contents (Elt F)),
    StableHlo.nullary main_c_5 (constantI S_ 32 500000#32),
    StableHlo.unary main_c_5 main_v23 (broadcastInDim S16000000 ![] bcast_S_S16000000 : (⟨S_, .i32⟩ : BufTy).Contents (Elt F) → (⟨S16000000, .i32⟩ : BufTy).Contents (Elt F)),
    StableHlo.binary main_v3 main_v23 main_v24 (addi : (⟨S16000000, .i32⟩ : BufTy).Contents (Elt F) → (⟨S16000000, .i32⟩ : BufTy).Contents (Elt F) → (⟨S16000000, .i32⟩ : BufTy).Contents (Elt F)),
    StableHlo.ternary main_v22 main_v24 main_v3 main_v25 (select : (⟨S16000000, .i1⟩ : BufTy).Contents (Elt F) → (⟨S16000000, .i32⟩ : BufTy).Contents (Elt F) → (⟨S16000000, .i32⟩ : BufTy).Contents (Elt F) → (⟨S16000000, .i32⟩ : BufTy).Contents (Elt F)),
    StableHlo.unary main_v25 main_v26 (broadcastInDim S16000000x1 ![0] bcast_S16000000_S16000000x1_0 : (⟨S16000000, .i32⟩ : BufTy).Contents (Elt F) → (⟨S16000000x1, .i32⟩ : BufTy).Contents (Elt F)),
    StableHlo.binary main_v12 main_v26 main_v27 ((fun x i => Host.gather gather_S500000_S16000000x1_S16000000_n_0_n_n_0_1_1 x i) : (⟨S500000, .f32⟩ : BufTy).Contents (Elt F) → (⟨S16000000x1, .i32⟩ : BufTy).Contents (Elt F) → (⟨S16000000, .f32⟩ : BufTy).Contents (Elt F)),
    StableHlo.binary main_v20 main_v27 main_v28 (mulf : (⟨S16000000, .f32⟩ : BufTy).Contents (Elt F) → (⟨S16000000, .f32⟩ : BufTy).Contents (Elt F) → (⟨S16000000, .f32⟩ : BufTy).Contents (Elt F)) ]
/-- The 15 lines of the first propagation round. -/
abbrev segC : List (HloOp τ sig (Elt F)) :=
  [ StableHlo.unary main_v28 main_v29 (broadcastInDim S16000000x1 ![0] bcast_S16000000_S16000000x1_0 : (⟨S16000000, .f32⟩ : BufTy).Contents (Elt F) → (⟨S16000000x1, .f32⟩ : BufTy).Contents (Elt F)),
    StableHlo.nullary main_c_6 (constantI S_ 32 0#32),
    StableHlo.unary main_c_6 main_v30 (broadcastInDim S16000000 ![] bcast_S_S16000000 : (⟨S_, .i32⟩ : BufTy).Contents (Elt F) → (⟨S16000000, .i32⟩ : BufTy).Contents (Elt F)),
    StableHlo.binary main_v1 main_v30 main_v31 (cmpi .slt : (⟨S16000000, .i32⟩ : BufTy).Contents (Elt F) → (⟨S16000000, .i32⟩ : BufTy).Contents (Elt F) → (⟨S16000000, .i1⟩ : BufTy).Contents (Elt F)),
    StableHlo.nullary main_c_7 (constantI S_ 32 500000#32),
    StableHlo.unary main_c_7 main_v32 (broadcastInDim S16000000 ![] bcast_S_S16000000 : (⟨S_, .i32⟩ : BufTy).Contents (Elt F) → (⟨S16000000, .i32⟩ : BufTy).Contents (Elt F)),
    StableHlo.binary main_v1 main_v32 main_v33 (addi : (⟨S16000000, .i32⟩ : BufTy).Contents (Elt F) → (⟨S16000000, .i32⟩ : BufTy).Contents (Elt F) → (⟨S16000000, .i32⟩ : BufTy).Contents (Elt F)),
    StableHlo.ternary main_v31 main_v33 main_v1 main_v34 (select : (⟨S16000000, .i1⟩ : BufTy).Contents (Elt F) → (⟨S16000000, .i32⟩ : BufTy).Contents (Elt F) → (⟨S16000000, .i32⟩ : BufTy).Contents (Elt F) → (⟨S16000000, .i32⟩ : BufTy).Contents (Elt F)),
    StableHlo.unary main_v34 main_v35 (broadcastInDim S16000000x1 ![0] bcast_S16000000_S16000000x1_0 : (⟨S16000000, .i32⟩ : BufTy).Contents (Elt F) → (⟨S16000000x1, .i32⟩ : BufTy).Contents (Elt F)),
    StableHlo.binary main_arg0 main_v35 main_v36 ((fun x i => Host.gather gather_S500000x1_S16000000x1_S16000000x1_1_0_n_n_0_1_11 x i) : (⟨S500000x1, .f32⟩ : BufTy).Contents (Elt F) → (⟨S16000000x1, .i32⟩ : BufTy).Contents (Elt F) → (⟨S16000000x1, .f32⟩ : BufTy).Contents (Elt F)),
    StableHlo.binary main_v29 main_v36 main_v37 (mulf : (⟨S16000000x1, .f32⟩ : BufTy).Contents (Elt F) → (⟨S16000000x1, .f32⟩ : BufTy).Contents (Elt F) → (⟨S16000000x1, .f32⟩ : BufTy).Contents (Elt F)),
    StableHlo.nullary main_cst_8 (constant S_ .f32 0x00000000#32),
    StableHlo.unary main_cst_8 main_v38 (broadcastInDim S500000x1 ![] bcast_S_S500000x1 : (⟨S_, .f32⟩ : BufTy).Contents (Elt F) → (⟨S500000x1, .f32⟩ : BufTy).Contents (Elt F)),
    StableHlo.unary main_v3 main_v39 (broadcastInDim S16000000x1 ![0] bcast_S16000000_S16000000x1_0 : (⟨S16000000, .i32⟩ : BufTy).Contents (Elt F) → (⟨S16000000x1, .i32⟩ : BufTy).Contents (Elt F)),
    StableHlo.ternary main_v38 main_v39 main_v37 main_v40 ((fun x i u => Host.scatterAdd scatter_S500000x1_S16000000x1_S16000000x1_1_0_0_1 x i u) : (⟨S500000x1, .f32⟩ : BufTy).Contents (Elt F) → (⟨S16000000x1, .i32⟩ : BufTy).Contents (Elt F) → (⟨S16000000x1, .f32⟩ : BufTy).Contents (Elt F) → (⟨S500000x1, .f32⟩ : BufTy).Contents (Elt F)) ]
/-- The 15 lines of the second round. -/
abbrev segD : List (HloOp τ sig (Elt F)) :=
  [ StableHlo.unary main_v28 main_v41 (broadcastInDim S16000000x1 ![0] bcast_S16000000_S16000000x1_0 : (⟨S16000000, .f32⟩ : BufTy).Contents (Elt F) → (⟨S16000000x1, .f32⟩ : BufTy).Contents (Elt F)),
    StableHlo.nullary main_c_9 (constantI S_ 32 0#32),
    StableHlo.unary main_c_9 main_v42 (broadcastInDim S16000000 ![] bcast_S_S16000000 : (⟨S_, .i32⟩ : BufTy).Contents (Elt F) → (⟨S16000000, .i32⟩ : BufTy).Contents (Elt F)),
    StableHlo.binary main_v1 main_v42 main_v43 (cmpi .slt : (⟨S16000000, .i32⟩ : BufTy).Contents (Elt F) → (⟨S16000000, .i32⟩ : BufTy).Contents (Elt F) → (⟨S16000000, .i1⟩ : BufTy).Contents (Elt F)),
    StableHlo.nullary main_c_10 (constantI S_ 32 500000#32),
    StableHlo.unary main_c_10 main_v44 (broadcastInDim S16000000 ![] bcast_S_S16000000 : (⟨S_, .i32⟩ : BufTy).Contents (Elt F) → (⟨S16000000, .i32⟩ : BufTy).Contents (Elt F)),
    StableHlo.binary main_v1 main_v44 main_v45 (addi : (⟨S16000000, .i32⟩ : BufTy).Contents (Elt F) → (⟨S16000000, .i32⟩ : BufTy).Contents (Elt F) → (⟨S16000000, .i32⟩ : BufTy).Contents (Elt F)),
    StableHlo.ternary main_v43 main_v45 main_v1 main_v46 (select : (⟨S16000000, .i1⟩ : BufTy).Contents (Elt F) → (⟨S16000000, .i32⟩ : BufTy).Contents (Elt F) → (⟨S16000000, .i32⟩ : BufTy).Contents (Elt F) → (⟨S16000000, .i32⟩ : BufTy).Contents (Elt F)),
    StableHlo.unary main_v46 main_v47 (broadcastInDim S16000000x1 ![0] bcast_S16000000_S16000000x1_0 : (⟨S16000000, .i32⟩ : BufTy).Contents (Elt F) → (⟨S16000000x1, .i32⟩ : BufTy).Contents (Elt F)),
    StableHlo.binary main_v40 main_v47 main_v48 ((fun x i => Host.gather gather_S500000x1_S16000000x1_S16000000x1_1_0_n_n_0_1_11 x i) : (⟨S500000x1, .f32⟩ : BufTy).Contents (Elt F) → (⟨S16000000x1, .i32⟩ : BufTy).Contents (Elt F) → (⟨S16000000x1, .f32⟩ : BufTy).Contents (Elt F)),
    StableHlo.binary main_v41 main_v48 main_v49 (mulf : (⟨S16000000x1, .f32⟩ : BufTy).Contents (Elt F) → (⟨S16000000x1, .f32⟩ : BufTy).Contents (Elt F) → (⟨S16000000x1, .f32⟩ : BufTy).Contents (Elt F)),
    StableHlo.nullary main_cst_11 (constant S_ .f32 0x00000000#32),
    StableHlo.unary main_cst_11 main_v50 (broadcastInDim S500000x1 ![] bcast_S_S500000x1 : (⟨S_, .f32⟩ : BufTy).Contents (Elt F) → (⟨S500000x1, .f32⟩ : BufTy).Contents (Elt F)),
    StableHlo.unary main_v3 main_v51 (broadcastInDim S16000000x1 ![0] bcast_S16000000_S16000000x1_0 : (⟨S16000000, .i32⟩ : BufTy).Contents (Elt F) → (⟨S16000000x1, .i32⟩ : BufTy).Contents (Elt F)),
    StableHlo.ternary main_v50 main_v51 main_v49 main_v52 ((fun x i u => Host.scatterAdd scatter_S500000x1_S16000000x1_S16000000x1_1_0_0_1 x i u) : (⟨S500000x1, .f32⟩ : BufTy).Contents (Elt F) → (⟨S16000000x1, .i32⟩ : BufTy).Contents (Elt F) → (⟨S16000000x1, .f32⟩ : BufTy).Contents (Elt F) → (⟨S500000x1, .f32⟩ : BufTy).Contents (Elt F)) ]
/-- The 15 lines of the third round. -/
abbrev segE : List (HloOp τ sig (Elt F)) :=
  [ StableHlo.unary main_v28 main_v53 (broadcastInDim S16000000x1 ![0] bcast_S16000000_S16000000x1_0 : (⟨S16000000, .f32⟩ : BufTy).Contents (Elt F) → (⟨S16000000x1, .f32⟩ : BufTy).Contents (Elt F)),
    StableHlo.nullary main_c_12 (constantI S_ 32 0#32),
    StableHlo.unary main_c_12 main_v54 (broadcastInDim S16000000 ![] bcast_S_S16000000 : (⟨S_, .i32⟩ : BufTy).Contents (Elt F) → (⟨S16000000, .i32⟩ : BufTy).Contents (Elt F)),
    StableHlo.binary main_v1 main_v54 main_v55 (cmpi .slt : (⟨S16000000, .i32⟩ : BufTy).Contents (Elt F) → (⟨S16000000, .i32⟩ : BufTy).Contents (Elt F) → (⟨S16000000, .i1⟩ : BufTy).Contents (Elt F)),
    StableHlo.nullary main_c_13 (constantI S_ 32 500000#32),
    StableHlo.unary main_c_13 main_v56 (broadcastInDim S16000000 ![] bcast_S_S16000000 : (⟨S_, .i32⟩ : BufTy).Contents (Elt F) → (⟨S16000000, .i32⟩ : BufTy).Contents (Elt F)),
    StableHlo.binary main_v1 main_v56 main_v57 (addi : (⟨S16000000, .i32⟩ : BufTy).Contents (Elt F) → (⟨S16000000, .i32⟩ : BufTy).Contents (Elt F) → (⟨S16000000, .i32⟩ : BufTy).Contents (Elt F)),
    StableHlo.ternary main_v55 main_v57 main_v1 main_v58 (select : (⟨S16000000, .i1⟩ : BufTy).Contents (Elt F) → (⟨S16000000, .i32⟩ : BufTy).Contents (Elt F) → (⟨S16000000, .i32⟩ : BufTy).Contents (Elt F) → (⟨S16000000, .i32⟩ : BufTy).Contents (Elt F)),
    StableHlo.unary main_v58 main_v59 (broadcastInDim S16000000x1 ![0] bcast_S16000000_S16000000x1_0 : (⟨S16000000, .i32⟩ : BufTy).Contents (Elt F) → (⟨S16000000x1, .i32⟩ : BufTy).Contents (Elt F)),
    StableHlo.binary main_v52 main_v59 main_v60 ((fun x i => Host.gather gather_S500000x1_S16000000x1_S16000000x1_1_0_n_n_0_1_11 x i) : (⟨S500000x1, .f32⟩ : BufTy).Contents (Elt F) → (⟨S16000000x1, .i32⟩ : BufTy).Contents (Elt F) → (⟨S16000000x1, .f32⟩ : BufTy).Contents (Elt F)),
    StableHlo.binary main_v53 main_v60 main_v61 (mulf : (⟨S16000000x1, .f32⟩ : BufTy).Contents (Elt F) → (⟨S16000000x1, .f32⟩ : BufTy).Contents (Elt F) → (⟨S16000000x1, .f32⟩ : BufTy).Contents (Elt F)),
    StableHlo.nullary main_cst_14 (constant S_ .f32 0x00000000#32),
    StableHlo.unary main_cst_14 main_v62 (broadcastInDim S500000x1 ![] bcast_S_S500000x1 : (⟨S_, .f32⟩ : BufTy).Contents (Elt F) → (⟨S500000x1, .f32⟩ : BufTy).Contents (Elt F)),
    StableHlo.unary main_v3 main_v63 (broadcastInDim S16000000x1 ![0] bcast_S16000000_S16000000x1_0 : (⟨S16000000, .i32⟩ : BufTy).Contents (Elt F) → (⟨S16000000x1, .i32⟩ : BufTy).Contents (Elt F)),
    StableHlo.ternary main_v62 main_v63 main_v61 main_v64 ((fun x i u => Host.scatterAdd scatter_S500000x1_S16000000x1_S16000000x1_1_0_0_1 x i u) : (⟨S500000x1, .f32⟩ : BufTy).Contents (Elt F) → (⟨S16000000x1, .i32⟩ : BufTy).Contents (Elt F) → (⟨S16000000x1, .f32⟩ : BufTy).Contents (Elt F) → (⟨S500000x1, .f32⟩ : BufTy).Contents (Elt F)) ]

set_option maxHeartbeats 4000000 in
/-- The lines before the stacking are those four stretches in a row. -/
theorem pre2_split : (pre2 : List (HloOp τ sig (Elt F))) = segB ++ (segC ++ (segD ++ segE)) := rfl

variable (m : (ℓ : Loc nD τ sig) → Buf (Elt F) ℓ)

/-- The buffers after the first stretch: the degrees, their comparison with zero and their inverse square roots. -/
def WA0 (c : Dev nD) : Valuation τ sig (Elt F) := StableHlo.after hostOps0 (fun b => m (c, b))
/-- The buffers after the three lines of the inlined selection: the degree normaliser. -/
def WA (c : Dev nD) : Valuation τ sig (Elt F) := StableHlo.after hostOps0_1 (WA0 m c)
/-- The buffers after the edge norm's lines. -/
def WB (c : Dev nD) : Valuation τ sig (Elt F) := StableHlo.after segB (WA m c)
/-- The buffers after the first propagation round. -/
def WC (c : Dev nD) : Valuation τ sig (Elt F) := StableHlo.after segC (WB m c)
/-- The buffers after the second. -/
def WD (c : Dev nD) : Valuation τ sig (Elt F) := StableHlo.after segD (WC m c)
/-- The buffers after the third. -/
def WE (c : Dev nD) : Valuation τ sig (Elt F) := StableHlo.after segE (WD m c)

/-- The buffers before the stacking are those after the third round. -/
theorem W_eq (c : Dev nD) : W m c = WE m c := by
  unfold W WE WD WC WB WA WA0
  rw [pre2_split]
  have e : (hostOps0 : List (HloOp τ sig (Elt F))) ++ (hostOps0_1 ++ (segB ++ (segC ++ (segD ++ segE))))
      = ((((hostOps0 ++ hostOps0_1) ++ segB) ++ segC) ++ segD) ++ segE := by
    simp only [List.append_assoc]
  rw [e, StableHlo.after_append, StableHlo.after_append, StableHlo.after_append, StableHlo.after_append, StableHlo.after_append]

/-! ## Up to the degree normaliser -/

set_option maxHeartbeats 4000000 in
/-- The edges' sources. -/
theorem WA0_v1 (mI : (ℓ : Loc nD τ sig) → Buf (Elt Ideal) ℓ) (c : Dev nD) : WA0 mI c main_v1 = Cert.ReferenceIdeal.Read.val_main_v1 (F := Ideal) (mI ((c : Thread nD τ).loc main_arg1)) := by
  unfold WA0
  simp only [hostOps0, List.cons_append, List.nil_append]
  after_results_simp
  try rfl

set_option maxHeartbeats 4000000 in
/-- The edges' targets. -/
theorem WA0_v3 (mI : (ℓ : Loc nD τ sig) → Buf (Elt Ideal) ℓ) (c : Dev nD) : WA0 mI c main_v3 = Cert.ReferenceIdeal.Read.val_main_v3 (F := Ideal) (mI ((c : Thread nD τ).loc main_arg1)) := by
  unfold WA0
  simp only [hostOps0, List.cons_append, List.nil_append]
  after_results_simp
  try rfl

set_option maxHeartbeats 4000000 in
/-- Where the degree is positive. -/
theorem WA0_v8 (mI : (ℓ : Loc nD τ sig) → Buf (Elt Ideal) ℓ) (c : Dev nD) : WA0 mI c main_v8 = Cert.ReferenceIdeal.Read.val_main_v8 (F := Ideal) (mI ((c : Thread nD τ).loc main_arg1)) (mI ((c : Thread nD τ).loc main_arg2)) := by
  unfold WA0
  simp only [hostOps0, List.cons_append, List.nil_append]
  after_results_simp
  try rfl

set_option maxHeartbeats 4000000 in
/-- The inverse square root of the degree, floored at the tiny constant. -/
theorem WA0_v11 (mI : (ℓ : Loc nD τ sig) → Buf (Elt Ideal) ℓ) (c : Dev nD) : WA0 mI c main_v11 = Cert.ReferenceIdeal.Read.val_main_v11 (F := Ideal) (mI ((c : Thread nD τ).loc main_arg1)) (mI ((c : Thread nD τ).loc main_arg2)) := by
  unfold WA0
  simp only [hostOps0, List.cons_append, List.nil_append]
  after_results_simp
  try rfl

set_option maxHeartbeats 4000000 in
/-- The zero the selection falls back to. -/
theorem WA0_cst_2 (mI : (ℓ : Loc nD τ sig) → Buf (Elt Ideal) ℓ) (c : Dev nD) : WA0 mI c main_cst_2 = Cert.ReferenceIdeal.Read.val_main_cst_2 (F := Ideal) := by
  unfold WA0
  simp only [hostOps0, List.cons_append, List.nil_append]
  after_results_simp
  try rfl

set_option maxHeartbeats 4000000 in
/-- The node features are untouched. -/
theorem WA0_arg0 (mI : (ℓ : Loc nD τ sig) → Buf (Elt Ideal) ℓ) (c : Dev nD) : WA0 mI c main_arg0 = (mI ((c : Thread nD τ).loc main_arg0)) := by
  unfold WA0
  simp only [hostOps0, List.cons_append, List.nil_append]
  after_results_simp
  try rfl

set_option maxHeartbeats 4000000 in
/-- The edge weights are untouched. -/
theorem WA0_arg2 (mI : (ℓ : Loc nD τ sig) → Buf (Elt Ideal) ℓ) (c : Dev nD) : WA0 mI c main_arg2 = (mI ((c : Thread nD τ).loc main_arg2)) := by
  unfold WA0
  simp only [hostOps0, List.cons_append, List.nil_append]
  after_results_simp
  try rfl

set_option maxHeartbeats 4000000 in
/-- The degree normaliser: the inverse square root where the degree is positive, zero elsewhere. The selection helper's typed references transport along equal types only. -/
theorem WA_v12 (mI : (ℓ : Loc nD τ sig) → Buf (Elt Ideal) ℓ) (c : Dev nD) : WA mI c main_v12 = Cert.ReferenceIdeal.Read.val_main_v12 (F := Ideal) (mI ((c : Thread nD τ).loc main_arg1)) (mI ((c : Thread nD τ).loc main_arg2)) := by
  unfold WA
  simp only [hostOps0_1, List.cons_append, List.nil_append]
  after_results_simp
  simp only [cast_eq]
  rw [WA0_v8, WA0_v11, WA0_cst_2]
  try rfl

set_option maxHeartbeats 4000000 in
/-- The sources are kept. -/
theorem WA_v1 (mI : (ℓ : Loc nD τ sig) → Buf (Elt Ideal) ℓ) (c : Dev nD) : WA mI c main_v1 = Cert.ReferenceIdeal.Read.val_main_v1 (F := Ideal) (mI ((c : Thread nD τ).loc main_arg1)) := by
  unfold WA
  simp only [hostOps0_1, List.cons_append, List.nil_append]
  after_results_simp
  rw [WA0_v1]
  try rfl

set_option maxHeartbeats 4000000 in
/-- The targets are kept. -/
theorem WA_v3 (mI : (ℓ : Loc nD τ sig) → Buf (Elt Ideal) ℓ) (c : Dev nD) : WA mI c main_v3 = Cert.ReferenceIdeal.Read.val_main_v3 (F := Ideal) (mI ((c : Thread nD τ).loc main_arg1)) := by
  unfold WA
  simp only [hostOps0_1, List.cons_append, List.nil_append]
  after_results_simp
  rw [WA0_v3]
  try rfl

set_option maxHeartbeats 4000000 in
/-- The node features are kept. -/
theorem WA_arg0 (mI : (ℓ : Loc nD τ sig) → Buf (Elt Ideal) ℓ) (c : Dev nD) : WA mI c main_arg0 = (mI ((c : Thread nD τ).loc main_arg0)) := by
  unfold WA
  simp only [hostOps0_1, List.cons_append, List.nil_append]
  after_results_simp
  rw [WA0_arg0]
  try rfl

set_option maxHeartbeats 4000000 in
/-- The edge weights are kept. -/
theorem WA_arg2 (mI : (ℓ : Loc nD τ sig) → Buf (Elt Ideal) ℓ) (c : Dev nD) : WA mI c main_arg2 = (mI ((c : Thread nD τ).loc main_arg2)) := by
  unfold WA
  simp only [hostOps0_1, List.cons_append, List.nil_append]
  after_results_simp
  rw [WA0_arg2]
  try rfl

/-! ## The edge norm -/

set_option maxHeartbeats 4000000 in
/-- The edge norm: the normaliser at the source, times the edge weight, times the normaliser at the target. -/
theorem WB_v28 (mI : (ℓ : Loc nD τ sig) → Buf (Elt Ideal) ℓ) (c : Dev nD) : WB mI c main_v28 = Cert.ReferenceIdeal.Read.val_main_v28 (F := Ideal) (mI ((c : Thread nD τ).loc main_arg1)) (mI ((c : Thread nD τ).loc main_arg2)) := by
  unfold WB
  simp only [segB, List.cons_append, List.nil_append]
  after_results_simp
  rw [WA_v1, WA_v3, WA_v12, WA_arg2]
  try simp only [cast_eq]
  try rfl
set_option maxHeartbeats 4000000 in
/-- The sources are kept. -/
theorem WB_v1 (mI : (ℓ : Loc nD τ sig) → Buf (Elt Ideal) ℓ) (c : Dev nD) : WB mI c main_v1 = Cert.ReferenceIdeal.Read.val_main_v1 (F := Ideal) (mI ((c : Thread nD τ).loc main_arg1)) := by
  unfold WB
  simp only [segB, List.cons_append, List.nil_append]
  after_results_simp
  rw [WA_v1]
  try simp only [cast_eq]
  try rfl
set_option maxHeartbeats 4000000 in
/-- The targets are kept. -/
theorem WB_v3 (mI : (ℓ : Loc nD τ sig) → Buf (Elt Ideal) ℓ) (c : Dev nD) : WB mI c main_v3 = Cert.ReferenceIdeal.Read.val_main_v3 (F := Ideal) (mI ((c : Thread nD τ).loc main_arg1)) := by
  unfold WB
  simp only [segB, List.cons_append, List.nil_append]
  after_results_simp
  rw [WA_v3]
  try simp only [cast_eq]
  try rfl
set_option maxHeartbeats 4000000 in
/-- The node features are kept. -/
theorem WB_arg0 (mI : (ℓ : Loc nD τ sig) → Buf (Elt Ideal) ℓ) (c : Dev nD) : WB mI c main_arg0 = (mI ((c : Thread nD τ).loc main_arg0)) := by
  unfold WB
  simp only [segB, List.cons_append, List.nil_append]
  after_results_simp
  rw [WA_arg0]
  try simp only [cast_eq]
  try rfl

/-! ## The three propagation rounds -/

set_option maxHeartbeats 4000000 in
/-- The first propagated column: the edge norm times the node features gathered at the sources, scatter-added at the targets. -/
theorem WC_v40 (mI : (ℓ : Loc nD τ sig) → Buf (Elt Ideal) ℓ) (c : Dev nD) : WC mI c main_v40 = Cert.ReferenceIdeal.Read.val_main_v41 (F := Ideal) (mI ((c : Thread nD τ).loc main_arg0)) (mI ((c : Thread nD τ).loc main_arg1)) (mI ((c : Thread nD τ).loc main_arg2)) := by
  unfold WC
  simp only [segC, List.cons_append, List.nil_append]
  after_results_simp
  rw [WB_v28, WB_v1, WB_v3, WB_arg0]
  try simp only [cast_eq]
  try rfl
set_option maxHeartbeats 4000000 in
/-- The edge norm is kept. -/
theorem WC_v28 (mI : (ℓ : Loc nD τ sig) → Buf (Elt Ideal) ℓ) (c : Dev nD) : WC mI c main_v28 = Cert.ReferenceIdeal.Read.val_main_v28 (F := Ideal) (mI ((c : Thread nD τ).loc main_arg1)) (mI ((c : Thread nD τ).loc main_arg2)) := by
  unfold WC
  simp only [segC, List.cons_append, List.nil_append]
  after_results_simp
  rw [WB_v28]
  try simp only [cast_eq]
  try rfl
set_option maxHeartbeats 4000000 in
/-- The sources are kept. -/
theorem WC_v1 (mI : (ℓ : Loc nD τ sig) → Buf (Elt Ideal) ℓ) (c : Dev nD) : WC mI c main_v1 = Cert.ReferenceIdeal.Read.val_main_v1 (F := Ideal) (mI ((c : Thread nD τ).loc main_arg1)) := by
  unfold WC
  simp only [segC, List.cons_append, List.nil_append]
  after_results_simp
  rw [WB_v1]
  try simp only [cast_eq]
  try rfl
set_option maxHeartbeats 4000000 in
/-- The targets are kept. -/
theorem WC_v3 (mI : (ℓ : Loc nD τ sig) → Buf (Elt Ideal) ℓ) (c : Dev nD) : WC mI c main_v3 = Cert.ReferenceIdeal.Read.val_main_v3 (F := Ideal) (mI ((c : Thread nD τ).loc main_arg1)) := by
  unfold WC
  simp only [segC, List.cons_append, List.nil_append]
  after_results_simp
  rw [WB_v3]
  try simp only [cast_eq]
  try rfl
set_option maxHeartbeats 4000000 in
/-- The node features are kept. -/
theorem WC_arg0 (mI : (ℓ : Loc nD τ sig) → Buf (Elt Ideal) ℓ) (c : Dev nD) : WC mI c main_arg0 = (mI ((c : Thread nD τ).loc main_arg0)) := by
  unfold WC
  simp only [segC, List.cons_append, List.nil_append]
  after_results_simp
  rw [WB_arg0]
  try simp only [cast_eq]
  try rfl

set_option maxHeartbeats 4000000 in
/-- The second propagated column: the same round applied to the first. -/
theorem WD_v52 (mI : (ℓ : Loc nD τ sig) → Buf (Elt Ideal) ℓ) (c : Dev nD) : WD mI c main_v52 = Cert.ReferenceIdeal.Read.val_main_v55 (F := Ideal) (mI ((c : Thread nD τ).loc main_arg0)) (mI ((c : Thread nD τ).loc main_arg1)) (mI ((c : Thread nD τ).loc main_arg2)) := by
  unfold WD
  simp only [segD, List.cons_append, List.nil_append]
  after_results_simp
  rw [WC_v28, WC_v1, WC_v3, WC_v40]
  try simp only [cast_eq]
  try rfl
set_option maxHeartbeats 4000000 in
/-- The first column is kept. -/
theorem WD_v40 (mI : (ℓ : Loc nD τ sig) → Buf (Elt Ideal) ℓ) (c : Dev nD) : WD mI c main_v40 = Cert.ReferenceIdeal.Read.val_main_v41 (F := Ideal) (mI ((c : Thread nD τ).loc main_arg0)) (mI ((c : Thread nD τ).loc main_arg1)) (mI ((c : Thread nD τ).loc main_arg2)) := by
  unfold WD
  simp only [segD, List.cons_append, List.nil_append]
  after_results_simp
  rw [WC_v40]
  try simp only [cast_eq]
  try rfl
set_option maxHeartbeats 4000000 in
/-- The edge norm is kept. -/
theorem WD_v28 (mI : (ℓ : Loc nD τ sig) → Buf (Elt Ideal) ℓ) (c : Dev nD) : WD mI c main_v28 = Cert.ReferenceIdeal.Read.val_main_v28 (F := Ideal) (mI ((c : Thread nD τ).loc main_arg1)) (mI ((c : Thread nD τ).loc main_arg2)) := by
  unfold WD
  simp only [segD, List.cons_append, List.nil_append]
  after_results_simp
  rw [WC_v28]
  try simp only [cast_eq]
  try rfl
set_option maxHeartbeats 4000000 in
/-- The sources are kept. -/
theorem WD_v1 (mI : (ℓ : Loc nD τ sig) → Buf (Elt Ideal) ℓ) (c : Dev nD) : WD mI c main_v1 = Cert.ReferenceIdeal.Read.val_main_v1 (F := Ideal) (mI ((c : Thread nD τ).loc main_arg1)) := by
  unfold WD
  simp only [segD, List.cons_append, List.nil_append]
  after_results_simp
  rw [WC_v1]
  try simp only [cast_eq]
  try rfl
set_option maxHeartbeats 4000000 in
/-- The targets are kept. -/
theorem WD_v3 (mI : (ℓ : Loc nD τ sig) → Buf (Elt Ideal) ℓ) (c : Dev nD) : WD mI c main_v3 = Cert.ReferenceIdeal.Read.val_main_v3 (F := Ideal) (mI ((c : Thread nD τ).loc main_arg1)) := by
  unfold WD
  simp only [segD, List.cons_append, List.nil_append]
  after_results_simp
  rw [WC_v3]
  try simp only [cast_eq]
  try rfl
set_option maxHeartbeats 4000000 in
/-- The node features are kept. -/
theorem WD_arg0 (mI : (ℓ : Loc nD τ sig) → Buf (Elt Ideal) ℓ) (c : Dev nD) : WD mI c main_arg0 = (mI ((c : Thread nD τ).loc main_arg0)) := by
  unfold WD
  simp only [segD, List.cons_append, List.nil_append]
  after_results_simp
  rw [WC_arg0]
  try simp only [cast_eq]
  try rfl

set_option maxHeartbeats 4000000 in
/-- The third propagated column: the same round applied to the second. -/
theorem WE_v64 (mI : (ℓ : Loc nD τ sig) → Buf (Elt Ideal) ℓ) (c : Dev nD) : WE mI c main_v64 = Cert.ReferenceIdeal.Read.val_main_v69 (F := Ideal) (mI ((c : Thread nD τ).loc main_arg0)) (mI ((c : Thread nD τ).loc main_arg1)) (mI ((c : Thread nD τ).loc main_arg2)) := by
  unfold WE
  simp only [segE, List.cons_append, List.nil_append]
  after_results_simp
  rw [WD_v28, WD_v1, WD_v3, WD_v52]
  try simp only [cast_eq]
  try rfl
set_option maxHeartbeats 4000000 in
/-- The second column is kept. -/
theorem WE_v52 (mI : (ℓ : Loc nD τ sig) → Buf (Elt Ideal) ℓ) (c : Dev nD) : WE mI c main_v52 = Cert.ReferenceIdeal.Read.val_main_v55 (F := Ideal) (mI ((c : Thread nD τ).loc main_arg0)) (mI ((c : Thread nD τ).loc main_arg1)) (mI ((c : Thread nD τ).loc main_arg2)) := by
  unfold WE
  simp only [segE, List.cons_append, List.nil_append]
  after_results_simp
  rw [WD_v52]
  try simp only [cast_eq]
  try rfl
set_option maxHeartbeats 4000000 in
/-- The first column is kept. -/
theorem WE_v40 (mI : (ℓ : Loc nD τ sig) → Buf (Elt Ideal) ℓ) (c : Dev nD) : WE mI c main_v40 = Cert.ReferenceIdeal.Read.val_main_v41 (F := Ideal) (mI ((c : Thread nD τ).loc main_arg0)) (mI ((c : Thread nD τ).loc main_arg1)) (mI ((c : Thread nD τ).loc main_arg2)) := by
  unfold WE
  simp only [segE, List.cons_append, List.nil_append]
  after_results_simp
  rw [WD_v40]
  try simp only [cast_eq]
  try rfl

/-! ## The columns before the stacking -/

/-- The first propagated column the stacking reads is the reference's. -/
theorem W_v40 (mI : (ℓ : Loc nD τ sig) → Buf (Elt Ideal) ℓ) (c : Dev nD) : W mI c main_v40 = Cert.ReferenceIdeal.Read.val_main_v41 (F := Ideal) (mI ((c : Thread nD τ).loc main_arg0)) (mI ((c : Thread nD τ).loc main_arg1)) (mI ((c : Thread nD τ).loc main_arg2)) := by
  rw [W_eq]; exact WE_v40 mI c
/-- So is the second. -/
theorem W_v52 (mI : (ℓ : Loc nD τ sig) → Buf (Elt Ideal) ℓ) (c : Dev nD) : W mI c main_v52 = Cert.ReferenceIdeal.Read.val_main_v55 (F := Ideal) (mI ((c : Thread nD τ).loc main_arg0)) (mI ((c : Thread nD τ).loc main_arg1)) (mI ((c : Thread nD τ).loc main_arg2)) := by
  rw [W_eq]; exact WE_v52 mI c
/-- And the third. -/
theorem W_v64 (mI : (ℓ : Loc nD τ sig) → Buf (Elt Ideal) ℓ) (c : Dev nD) : W mI c main_v64 = Cert.ReferenceIdeal.Read.val_main_v69 (F := Ideal) (mI ((c : Thread nD τ).loc main_arg0)) (mI ((c : Thread nD τ).loc main_arg1)) (mI ((c : Thread nD τ).loc main_arg2)) := by
  rw [W_eq]; exact WE_v64 mI c

end Cert.KernelIdeal.HostLines

end
-- ==== Proof.RefValue.lean ====
/-
  The reference's result, read at one row, on the extended reals.

  The reference combines the hops as four products of one contracted term each — the node features and the three
  propagated feature columns, each against its own 1 × 128 weight row — added left to right, then applies the same three
  layers as the kernel: bias row and maximum with zero, the 128 × 128 product, bias row and maximum with zero, the
  128 × 1 product, bias and maximum with zero. Read stage by stage at row `p`, its result is `Spec.tail` of that row of
  the combined hops. The propagated columns stay the reference's own stages (a scatter-add of gathered products); they
  are never opened.
-/
import proofs.«178473_j4784593568488_1_alg».proof.Proof.Gen.ReferenceIdeal.Read
import proofs.«178473_j4784593568488_1_alg».proof.Proof.Spec

noncomputable section

open scoped BigOperators

namespace Cert.ReferenceIdeal.RefValue

open Cert.ReferenceIdeal Cert.ReferenceIdeal.Read Idealize.ShloMosaic Idealize.ShloMosaic.ValueIdx Cert.Spec

/-! The stages' index functions, in coordinates: a product's left operand is read at the result's row and the contracted
    coordinate, its right operand at the contracted coordinate and the result's column; a bias is read at the column. -/

theorem l29 (p : Fin 500000) (l : Fin 128) (k : Fin 1) : lidx_main_v29 (ix2 p l) k = ix2 p k := funext fun a => Fin.ext (by match a with | ⟨0, _⟩ => rfl | ⟨1, _⟩ => rfl)
theorem r29 (p : Fin 500000) (l : Fin 128) (k : Fin 1) : ridx_main_v29 (ix2 p l) k = ix2 k l := funext fun a => Fin.ext (by match a with | ⟨0, _⟩ => rfl | ⟨1, _⟩ => rfl)
theorem l42 (p : Fin 500000) (l : Fin 128) (k : Fin 1) : lidx_main_v42 (ix2 p l) k = ix2 p k := funext fun a => Fin.ext (by match a with | ⟨0, _⟩ => rfl | ⟨1, _⟩ => rfl)
theorem r42 (p : Fin 500000) (l : Fin 128) (k : Fin 1) : ridx_main_v42 (ix2 p l) k = ix2 k l := funext fun a => Fin.ext (by match a with | ⟨0, _⟩ => rfl | ⟨1, _⟩ => rfl)
theorem l56 (p : Fin 500000) (l : Fin 128) (k : Fin 1) : lidx_main_v56 (ix2 p l) k = ix2 p k := funext fun a => Fin.ext (by match a with | ⟨0, _⟩ => rfl | ⟨1, _⟩ => rfl)
theorem r56 (p : Fin 500000) (l : Fin 128) (k : Fin 1) : ridx_main_v56 (ix2 p l) k = ix2 k l := funext fun a => Fin.ext (by match a with | ⟨0, _⟩ => rfl | ⟨1, _⟩ => rfl)
theorem l70 (p : Fin 500000) (l : Fin 128) (k : Fin 1) : lidx_main_v70 (ix2 p l) k = ix2 p k := funext fun a => Fin.ext (by match a with | ⟨0, _⟩ => rfl | ⟨1, _⟩ => rfl)
theorem r70 (p : Fin 500000) (l : Fin 128) (k : Fin 1) : ridx_main_v70 (ix2 p l) k = ix2 k l := funext fun a => Fin.ext (by match a with | ⟨0, _⟩ => rfl | ⟨1, _⟩ => rfl)
theorem l76 (p : Fin 500000) (j : Fin 128) (k : Fin 128) : lidx_main_v76 (ix2 p j) k = ix2 p k := funext fun a => Fin.ext (by match a with | ⟨0, _⟩ => rfl | ⟨1, _⟩ => rfl)
theorem r76 (p : Fin 500000) (j : Fin 128) (k : Fin 128) : ridx_main_v76 (ix2 p j) k = ix2 k j := funext fun a => Fin.ext (by match a with | ⟨0, _⟩ => rfl | ⟨1, _⟩ => rfl)
theorem l81 (p : Fin 500000) (u : Fin 1) (k : Fin 128) : lidx_main_v81 (ix2 p u) k = ix2 p k := funext fun a => Fin.ext (by match a with | ⟨0, _⟩ => rfl | ⟨1, _⟩ => rfl)
theorem r81 (p : Fin 500000) (u : Fin 1) (k : Fin 128) : ridx_main_v81 (ix2 p u) k = ix2 k u := funext fun a => Fin.ext (by match a with | ⟨0, _⟩ => rfl | ⟨1, _⟩ => rfl)
theorem i73 (p : Fin 500000) (l : Fin 128) : idx_main_v72 (idx_main_v73 (ix2 p l)) = ix1 l := funext fun a => Fin.ext (by match a with | ⟨0, _⟩ => rfl)
theorem i78 (p : Fin 500000) (l : Fin 128) : idx_main_v77 (idx_main_v78 (ix2 p l)) = ix1 l := funext fun a => Fin.ext (by match a with | ⟨0, _⟩ => rfl)
theorem i83 (p : Fin 500000) (u : Fin 1) : idx_main_v82 (idx_main_v83 (ix2 p u)) = ix1 (0 : Fin 1) := funext fun a => Fin.ext (by match a with | ⟨0, _⟩ => rfl)

/-- The reference's result at row `p`: the three layers of the four hop products added left to right. -/
theorem ref_at (x0 : (⟨S500000x1, .f32⟩ : BufTy).Contents (Elt Ideal)) (x1 : (⟨S2x16000000, .i32⟩ : BufTy).Contents (Elt Ideal)) (x2 : (⟨S16000000, .f32⟩ : BufTy).Contents (Elt Ideal)) (x3 x4 x5 x6 : (⟨S1x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x1, .f32⟩ : BufTy).Contents (Elt Ideal)) (x11 : (⟨S1, .f32⟩ : BufTy).Contents (Elt Ideal)) (p : Fin 500000) :
    val_main_v85 (F := Ideal) x0 x1 x2 x3 x4 x5 x6 x7 x8 x9 x10 x11 (ix2 p 0)
      = tail (fun l => (∑ k : Fin 1, x0 (ix2 p k) * x3 (ix2 k l))
            + (∑ k : Fin 1, val_main_v41 (F := Ideal) x0 x1 x2 (ix2 p k) * x4 (ix2 k l))
            + (∑ k : Fin 1, val_main_v55 (F := Ideal) x0 x1 x2 (ix2 p k) * x5 (ix2 k l))
            + (∑ k : Fin 1, val_main_v69 (F := Ideal) x0 x1 x2 (ix2 p k) * x6 (ix2 k l)))
          (fun l => x7 (ix1 l)) (fun j => x9 (ix1 j)) (fun l j => x8 (ix2 l j)) (fun j => x10 (ix2 j 0)) (x11 (ix1 0)) := by
  unfold tail
  simp only [val_main_v85_apply, val_main_v84_apply, val_main_v81_apply, val_main_v83_apply, val_main_v82_apply,
    val_main_call3_v0_apply, val_main_call3_cst_apply,
    val_main_v80_apply, val_main_v79_apply, val_main_v76_apply, val_main_v78_apply, val_main_v77_apply,
    val_main_call2_v0_apply, val_main_call2_cst_apply,
    val_main_v75_apply, val_main_v74_apply, val_main_v73_apply, val_main_v72_apply,
    val_main_call1_v0_apply, val_main_call1_cst_apply,
    val_main_v71_apply, val_main_v70_apply, val_main_v57_apply, val_main_v56_apply, val_main_v43_apply,
    val_main_v42_apply, val_main_v29_apply,
    l29, r29, l42, r42, l56, r56, l70, r70, l76, r76, l81, r81, i73, i78, i83,
    Ideal.addf_def, Ideal.maximumf_def]
  rfl

end Cert.ReferenceIdeal.RefValue

end
-- ==== Proof.LibStack4.lean ====
/-
  Four arrays stacked along an axis, read at an index.

  * `cat4_cols`: four `[n, 1]` columns concatenated along axis 1 into `[n, 4]`: entry `(p, k)` is column `k` at `(p, 0)`;
  * `cat4_rows`: four `[1, n]` rows concatenated along axis 0 into `[4, n]`: entry `(k, q)` is row `k` at `(0, q)`.
  Generic in `n` and the element type. Each is the library's reading of a concatenation at the piece whose span holds the
  axis coordinate, with the extents before piece `k` summing to `k`.
-/
import Idealize.ShloMosaic.Lib.Pipeline.Value
import Idealize.ShloMosaic.Lib.ValueIdx

noncomputable section

namespace Cert.LibStack4

open Idealize.ShloMosaic Idealize.ShloMosaic.ValueIdx

variable {α : Type} {n : Nat}

/-- Four `[n, 1]` columns stacked side by side, read at `(p, k)`: column `k` at `(p, 0)`. -/
theorem cat4_cols (x0 x1 x2 x3 : (⟨2, ![n, 1]⟩ : Shape).Idx → α)
    (h : Shape.Concatenates [(⟨2, ![n, 1]⟩ : Shape), ⟨2, ![n, 1]⟩, ⟨2, ![n, 1]⟩, ⟨2, ![n, 1]⟩] ⟨2, ![n, 4]⟩ 1) (p : Fin n) :
    concatenate ⟨2, ![n, 4]⟩ 1 [⟨⟨2, ![n, 1]⟩, x0⟩, ⟨⟨2, ![n, 1]⟩, x1⟩, ⟨⟨2, ![n, 1]⟩, x2⟩, ⟨⟨2, ![n, 1]⟩, x3⟩] h (ix2 p (0 : Fin 4)) = x0 (ix2 p 0)
    ∧ concatenate ⟨2, ![n, 4]⟩ 1 [⟨⟨2, ![n, 1]⟩, x0⟩, ⟨⟨2, ![n, 1]⟩, x1⟩, ⟨⟨2, ![n, 1]⟩, x2⟩, ⟨⟨2, ![n, 1]⟩, x3⟩] h (ix2 p (1 : Fin 4)) = x1 (ix2 p 0)
    ∧ concatenate ⟨2, ![n, 4]⟩ 1 [⟨⟨2, ![n, 1]⟩, x0⟩, ⟨⟨2, ![n, 1]⟩, x1⟩, ⟨⟨2, ![n, 1]⟩, x2⟩, ⟨⟨2, ![n, 1]⟩, x3⟩] h (ix2 p (2 : Fin 4)) = x2 (ix2 p 0)
    ∧ concatenate ⟨2, ![n, 4]⟩ 1 [⟨⟨2, ![n, 1]⟩, x0⟩, ⟨⟨2, ![n, 1]⟩, x1⟩, ⟨⟨2, ![n, 1]⟩, x2⟩, ⟨⟨2, ![n, 1]⟩, x3⟩] h (ix2 p (3 : Fin 4)) = x3 (ix2 p 0) := by
  refine ⟨?_, ?_, ?_, ?_⟩
  · refine concatenate_apply_piece (t := ⟨2, ![n, 4]⟩) (1 : Fin 2) [⟨⟨2, ![n, 1]⟩, x0⟩, ⟨⟨2, ![n, 1]⟩, x1⟩, ⟨⟨2, ![n, 1]⟩, x2⟩, ⟨⟨2, ![n, 1]⟩, x3⟩] h (ix2 p (0 : Fin 4)) 0 (by show (0 : Nat) < 4; omega) ⟨2, ![n, 1]⟩ x0 rfl rfl 0 rfl (ix2 p 0) (fun b hb => ?_) rfl
    match b with
    | ⟨1, _⟩ => exact absurd rfl hb
    | ⟨0, _⟩ => rfl
  · refine concatenate_apply_piece (t := ⟨2, ![n, 4]⟩) (1 : Fin 2) [⟨⟨2, ![n, 1]⟩, x0⟩, ⟨⟨2, ![n, 1]⟩, x1⟩, ⟨⟨2, ![n, 1]⟩, x2⟩, ⟨⟨2, ![n, 1]⟩, x3⟩] h (ix2 p (1 : Fin 4)) 1 (by show (1 : Nat) < 4; omega) ⟨2, ![n, 1]⟩ x1 rfl rfl 1 rfl (ix2 p 0) (fun b hb => ?_) rfl
    match b with
    | ⟨1, _⟩ => exact absurd rfl hb
    | ⟨0, _⟩ => rfl
  · refine concatenate_apply_piece (t := ⟨2, ![n, 4]⟩) (1 : Fin 2) [⟨⟨2, ![n, 1]⟩, x0⟩, ⟨⟨2, ![n, 1]⟩, x1⟩, ⟨⟨2, ![n, 1]⟩, x2⟩, ⟨⟨2, ![n, 1]⟩, x3⟩] h (ix2 p (2 : Fin 4)) 2 (by show (2 : Nat) < 4; omega) ⟨2, ![n, 1]⟩ x2 rfl rfl 2 rfl (ix2 p 0) (fun b hb => ?_) rfl
    match b with
    | ⟨1, _⟩ => exact absurd rfl hb
    | ⟨0, _⟩ => rfl
  · refine concatenate_apply_piece (t := ⟨2, ![n, 4]⟩) (1 : Fin 2) [⟨⟨2, ![n, 1]⟩, x0⟩, ⟨⟨2, ![n, 1]⟩, x1⟩, ⟨⟨2, ![n, 1]⟩, x2⟩, ⟨⟨2, ![n, 1]⟩, x3⟩] h (ix2 p (3 : Fin 4)) 3 (by show (3 : Nat) < 4; omega) ⟨2, ![n, 1]⟩ x3 rfl rfl 3 rfl (ix2 p 0) (fun b hb => ?_) rfl
    match b with
    | ⟨1, _⟩ => exact absurd rfl hb
    | ⟨0, _⟩ => rfl

/-- Four `[1, n]` rows stacked one under the other, read at `(k, q)`: row `k` at `(0, q)`. -/
theorem cat4_rows (x0 x1 x2 x3 : (⟨2, ![1, n]⟩ : Shape).Idx → α)
    (h : Shape.Concatenates [(⟨2, ![1, n]⟩ : Shape), ⟨2, ![1, n]⟩, ⟨2, ![1, n]⟩, ⟨2, ![1, n]⟩] ⟨2, ![4, n]⟩ 0) (q : Fin n) :
    concatenate ⟨2, ![4, n]⟩ 0 [⟨⟨2, ![1, n]⟩, x0⟩, ⟨⟨2, ![1, n]⟩, x1⟩, ⟨⟨2, ![1, n]⟩, x2⟩, ⟨⟨2, ![1, n]⟩, x3⟩] h (ix2 (0 : Fin 4) q) = x0 (ix2 0 q)
    ∧ concatenate ⟨2, ![4, n]⟩ 0 [⟨⟨2, ![1, n]⟩, x0⟩, ⟨⟨2, ![1, n]⟩, x1⟩, ⟨⟨2, ![1, n]⟩, x2⟩, ⟨⟨2, ![1, n]⟩, x3⟩] h (ix2 (1 : Fin 4) q) = x1 (ix2 0 q)
    ∧ concatenate ⟨2, ![4, n]⟩ 0 [⟨⟨2, ![1, n]⟩, x0⟩, ⟨⟨2, ![1, n]⟩, x1⟩, ⟨⟨2, ![1, n]⟩, x2⟩, ⟨⟨2, ![1, n]⟩, x3⟩] h (ix2 (2 : Fin 4) q) = x2 (ix2 0 q)
    ∧ concatenate ⟨2, ![4, n]⟩ 0 [⟨⟨2, ![1, n]⟩, x0⟩, ⟨⟨2, ![1, n]⟩, x1⟩, ⟨⟨2, ![1, n]⟩, x2⟩, ⟨⟨2, ![1, n]⟩, x3⟩] h (ix2 (3 : Fin 4) q) = x3 (ix2 0 q) := by
  refine ⟨?_, ?_, ?_, ?_⟩
  · refine concatenate_apply_piece (t := ⟨2, ![4, n]⟩) (0 : Fin 2) [⟨⟨2, ![1, n]⟩, x0⟩, ⟨⟨2, ![1, n]⟩, x1⟩, ⟨⟨2, ![1, n]⟩, x2⟩, ⟨⟨2, ![1, n]⟩, x3⟩] h (ix2 (0 : Fin 4) q) 0 (by show (0 : Nat) < 4; omega) ⟨2, ![1, n]⟩ x0 rfl rfl 0 rfl (ix2 0 q) (fun b hb => ?_) rfl
    match b with
    | ⟨0, _⟩ => exact absurd rfl hb
    | ⟨1, _⟩ => rfl
  · refine concatenate_apply_piece (t := ⟨2, ![4, n]⟩) (0 : Fin 2) [⟨⟨2, ![1, n]⟩, x0⟩, ⟨⟨2, ![1, n]⟩, x1⟩, ⟨⟨2, ![1, n]⟩, x2⟩, ⟨⟨2, ![1, n]⟩, x3⟩] h (ix2 (1 : Fin 4) q) 1 (by show (1 : Nat) < 4; omega) ⟨2, ![1, n]⟩ x1 rfl rfl 1 rfl (ix2 0 q) (fun b hb => ?_) rfl
    match b with
    | ⟨0, _⟩ => exact absurd rfl hb
    | ⟨1, _⟩ => rfl
  · refine concatenate_apply_piece (t := ⟨2, ![4, n]⟩) (0 : Fin 2) [⟨⟨2, ![1, n]⟩, x0⟩, ⟨⟨2, ![1, n]⟩, x1⟩, ⟨⟨2, ![1, n]⟩, x2⟩, ⟨⟨2, ![1, n]⟩, x3⟩] h (ix2 (2 : Fin 4) q) 2 (by show (2 : Nat) < 4; omega) ⟨2, ![1, n]⟩ x2 rfl rfl 2 rfl (ix2 0 q) (fun b hb => ?_) rfl
    match b with
    | ⟨0, _⟩ => exact absurd rfl hb
    | ⟨1, _⟩ => rfl
  · refine concatenate_apply_piece (t := ⟨2, ![4, n]⟩) (0 : Fin 2) [⟨⟨2, ![1, n]⟩, x0⟩, ⟨⟨2, ![1, n]⟩, x1⟩, ⟨⟨2, ![1, n]⟩, x2⟩, ⟨⟨2, ![1, n]⟩, x3⟩] h (ix2 (3 : Fin 4) q) 3 (by show (3 : Nat) < 4; omega) ⟨2, ![1, n]⟩ x3 rfl rfl 3 rfl (ix2 0 q) (fun b hb => ?_) rfl
    match b with
    | ⟨0, _⟩ => exact absurd rfl hb
    | ⟨1, _⟩ => rfl

end Cert.LibStack4

end
-- ==== Proof.Joined.lean ====
/-
  The two results are one function: the kernel's result array and the reference's, row by row, on the extended reals.

  Row `p` of the kernel's result is the three layers of `∑ k : Fin 4, H (p, k) · Wst (k, l)`, where `H` is the four columns
  `[x, h₁, h₂, h₃]` side by side and `Wst` the four hop weight rows one under the other; so term `k` of the sum is column
  `k` at `(p, 0)` times weight row `k` at `(0, l)`. Row `p` of the reference's result is the same three layers of the four
  one-term products `x · W₀ + h₁ · W₁ + h₂ · W₂ + h₃ · W₃` added left to right, over the same columns. A sum over four
  hops is its terms added left to right (`Spec.sum_hops`), so the rows are equal; the biases the kernel reshaped to rows
  read the vectors the reference broadcasts. Nothing here needs the inputs finite.
-/
import proofs.«178473_j4784593568488_1_alg».proof.Proof.KernelArrays
import proofs.«178473_j4784593568488_1_alg».proof.Proof.KernelHost
import proofs.«178473_j4784593568488_1_alg».proof.Proof.KernelProp
import proofs.«178473_j4784593568488_1_alg».proof.Proof.RefValue
import proofs.«178473_j4784593568488_1_alg».proof.Proof.LibStack4
import Idealize.ShloMosaic.Lib.ValueLayout

set_option maxRecDepth 16384

noncomputable section

open scoped BigOperators

namespace Cert.KernelIdeal.Joined

open Cert.KernelIdeal Cert.KernelIdeal.Gen Cert.KernelIdeal.Hand Cert.KernelIdeal.Arrays Cert.KernelIdeal.HostLines
open Idealize.ShloMosaic Idealize.ShloMosaic.TcCoe Idealize.SL.Sem Idealize.ShloMosaic.ValueIdx Cert.Spec

variable (m : (ℓ : Loc nD τ sig) → Buf (Elt Ideal) ℓ)

set_option allowUnsafeReducibility true in
attribute [local irreducible] Cert.KernelIdeal.Hand.V

/-- The kernel's result array is the reference's result of the same arguments. -/
theorem result_eq (c : Dev nD) :
    rowsOf (V m c main_v65) (V m c main_v66) (V m c main_v67) (V m c main_arg8) (V m c main_v68) (V m c main_arg10) (V m c main_v69)
      = Cert.ReferenceIdeal.Read.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  funext i
  obtain ⟨p, u, rfl⟩ : ∃ (p : Fin 500000) (u : Fin 1), i = ix2 p u := ⟨i 0, i 1, eq_ix2 i⟩
  have hu : u = 0 := Subsingleton.elim _ _
  subst hu
  rw [Cert.ReferenceIdeal.RefValue.ref_at]
  show rowOf (V m c main_v65) (V m c main_v66) (V m c main_v67) (V m c main_arg8) (V m c main_v68) (V m c main_arg10) (V m c main_v69) p = _
  unfold rowOf
  rw [V_v65, V_v66, V_v67, V_v68, V_v69, V_main_arg8, V_main_arg10, W_arg0, W_arg3, W_arg4, W_arg5, W_arg6, W_arg7, W_arg9, W_arg11,
    W_v40, W_v52, W_v64]
  congr 1
  · -- the combined hop row: term `k` of the stacked product is column `k` times weight row `k`
    funext l
    obtain ⟨c0, c1, c2, c3⟩ := Cert.LibStack4.cat4_cols (m ((c : Thread nD τ).loc main_arg0)) (Cert.ReferenceIdeal.Read.val_main_v41 (F := Ideal) (m ((c : Thread nD τ).loc main_arg0)) (m ((c : Thread nD τ).loc main_arg1)) (m ((c : Thread nD τ).loc main_arg2))) (Cert.ReferenceIdeal.Read.val_main_v55 (F := Ideal) (m ((c : Thread nD τ).loc main_arg0)) (m ((c : Thread nD τ).loc main_arg1)) (m ((c : Thread nD τ).loc main_arg2))) (Cert.ReferenceIdeal.Read.val_main_v69 (F := Ideal) (m ((c : Thread nD τ).loc main_arg0)) (m ((c : Thread nD τ).loc main_arg1)) (m ((c : Thread nD τ).loc main_arg2)))
      concatenates_S500000x1_S500000x1_S500000x1_S500000x1_S500000x4_d1 p
    obtain ⟨r0, r1, r2, r3⟩ := Cert.LibStack4.cat4_rows (m ((c : Thread nD τ).loc main_arg3)) (m ((c : Thread nD τ).loc main_arg4)) (m ((c : Thread nD τ).loc main_arg5)) (m ((c : Thread nD τ).loc main_arg6))
      concatenates_S1x128_S1x128_S1x128_S1x128_S4x128_d0 l
    refine (sum_hops _ _ _ _ _ ?_ ?_ ?_ ?_).symm
    · beta_reduce; rw [c0, r0]
    · beta_reduce; rw [c1, r1]
    · beta_reduce; rw [c2, r2]
    · beta_reduce; rw [c3, r3]
  · -- the first bias, reshaped to a row, reads the vector
    funext l; exact shapeCast_a_1a_apply _ _ 0 l
  · funext j; exact shapeCast_a_1a_apply _ _ 0 j
  · exact shapeCast_a_1a_apply _ _ 0 0

end Cert.KernelIdeal.Joined

end
-- ==== Proof.lean ====
/-
  The certificate of the stacked-hop dense stage against its reference.

  The kernel runs the graph propagation on the host (three rounds of gather, scale, scatter-add), stacks the node
  features and the three propagated columns side by side, and hands the stack to one pipelined region that computes, for
  each block of 5000 nodes, the product with the stacked hop weights, then bias and maximum with zero, a 128 × 128 layer,
  and a 128 × 1 layer. The reference runs the same propagation and combines the hops as four separate products added
  left to right before the same layers.

  * Frames. Each kernel program's frame is the run of its host lines followed by the library's frame run of the region,
    with the body's triple run symbolically (the modules `KernelFrame` at the word-level instance and `KernelIdealFrame`
    at any instance). The reference has no region: its frame is its run with the result dropped.
  * The idealization rewrote no operation, so there is nothing to preserve.
  * Equal results at the ideal instance: the kernel's result array is one function of the arrays the region finds
    (`KernelArrays`); those arrays are the arguments and the reference's own propagated columns (`KernelHost`); the
    reference's result read stage by stage is the same three layers (`RefValue`); and a sum over the four stacked hops
    is the four hop products added left to right (`Joined`). The law is associativity alone, so the precondition is
    never opened.
-/
import proofs.«178473_j4784593568488_1_alg».proof.Defs
import proofs.«178473_j4784593568488_1_alg».proof.Proof.Gen.Kernel
import proofs.«178473_j4784593568488_1_alg».proof.Proof.Gen.KernelIdeal
import proofs.«178473_j4784593568488_1_alg».proof.Proof.Gen.ReferenceIdeal
import proofs.«178473_j4784593568488_1_alg».proof.Proof.Gen.ReferenceIdeal.Run
import proofs.«178473_j4784593568488_1_alg».proof.Proof.Gen.ReferenceIdeal.Read
import proofs.«178473_j4784593568488_1_alg».proof.Proof.Gen.Pre_finite_inputs
import proofs.«178473_j4784593568488_1_alg».proof.Proof.KernelFrame
import proofs.«178473_j4784593568488_1_alg».proof.Proof.KernelIdealFrame
import proofs.«178473_j4784593568488_1_alg».proof.Proof.KernelArrays
import proofs.«178473_j4784593568488_1_alg».proof.Proof.Joined
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference is host lines only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both idealized programs run to the end with equal results: the kernel's
    result array is the reference's result of the same arguments. -/
theorem algebraic : Cert.algebraic_KernelIdeal_ReferenceIdeal := by
  intro m ρ m' ρ' _ hagree
  refine ⟨_, Cert.KernelIdeal.Arrays.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11⟩ := hagree c
  rw [Cert.ReferenceIdeal.Read.val_main_v85_eq, a0, a1, a2, a3, a4, a5, a6, a7, a8, a9, a10, a11]
  exact (Cert.KernelIdeal.Joined.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
